-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v42_0)) (v1 : (c : Dev Cert.KernelIdeal.nD) → Buf (Elt Ideal) ((c.tc : Thread Cert.KernelIdeal.nD Cert.KernelIdeal.τ).loc Cert.KernelIdeal.main_v42_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42_0) = v0 c
          ∧ r.2.mem ((c.tc : Thread Cert.KernelIdeal.nD Cert.KernelIdeal.τ).loc Cert.KernelIdeal.main_v42_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_v102) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x256 : Shape := ⟨2, ![32768, 256]⟩
abbrev S1024x256 : Shape := ⟨2, ![1024, 256]⟩
abbrev S1024 : Shape := ⟨1, ![1024]⟩
abbrev S256x1024 : Shape := ⟨2, ![256, 1024]⟩
abbrev S_ : Shape := ⟨0, ![]⟩

class Facts : Prop where
  bcast_S_S32768x256 : S_.BroadcastsInDim S32768x256 (![] : Fin 0 → Fin S32768x256.rank)
  reducesTo_S32768x256_S_d0_1 : S32768x256.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S1024 : S_.BroadcastsInDim S1024 (![] : Fin 0 → Fin S1024.rank)
  reducesTo_S1024_S_d0 : S1024.ReducesTo [0] S_
  bcast_S_S256x1024 : S_.BroadcastsInDim S256x1024 (![] : Fin 0 → Fin S256x1024.rank)
  reducesTo_S256x1024_S_d0_1 : S256x1024.ReducesTo [0, 1] S_

variable [Facts]

def fn_part2 {F : FTy → Type} [FloatOps F] (main_arg7 : FVec F S256x1024 .f32) (main_arg8 : FVec F S256x1024 .f32) (main_v33 : IVec S_ 1) : IVec S_ 1 :=
  let main_v34 : FVec F S256x1024 .f32 := Host.absf main_arg7
  let main_cst_12 : FVec F S_ .f32 := constant S_ .f32 0x7F800000#32
  let main_v35 : FVec F S256x1024 .f32 := broadcastInDim S256x1024 ![] bcast_S_S256x1024 main_cst_12
  let main_v36 : IVec S256x1024 1 := cmpf .olt main_v34 main_v35
  let main_c_13 : IVec S_ 1 := constantI S_ 1 1#1
  let main_v37 : IVec S_ 1 := (fun x v => Host.reduce IntOp.andi x v reducesTo_S256x1024_S_d0_1 h_S_) main_v36 main_c_13
  let main_v38 : IVec S_ 1 := andi main_v33 main_v37
  let main_v39 : FVec F S256x1024 .f32 := Host.absf main_arg8
  let main_cst_14 : FVec F S_ .f32 := constant S_ .f32 0x7F800000#32
  let main_v40 : FVec F S256x1024 .f32 := broadcastInDim S256x1024 ![] bcast_S_S256x1024 main_cst_14
  let main_v41 : IVec S256x1024 1 := cmpf .olt main_v39 main_v40
  let main_c_15 : IVec S_ 1 := constantI S_ 1 1#1
  let main_v42 : IVec S_ 1 := (fun x v => Host.reduce IntOp.andi x v reducesTo_S256x1024_S_d0_1 h_S_) main_v41 main_c_15
  let main_v43 : IVec S_ 1 := andi main_v38 main_v42
  main_v43

def fn_part1 {F : FTy → Type} [FloatOps F] (main_arg4 : FVec F S1024x256 .f32) (main_arg5 : FVec F S1024 .f32) (main_arg6 : FVec F S1024 .f32) (main_arg7 : FVec F S256x1024 .f32) (main_arg8 : FVec F S256x1024 .f32) (main_v13 : IVec S_ 1) (main_v16 : IVec S1024x256 1) : IVec S_ 1 :=
  let main_c_5 : IVec S_ 1 := constantI S_ 1 1#1
  let main_v17 : IVec S_ 1 := (fun x v => Host.reduce IntOp.andi x v reducesTo_S1024x256_S_d0_1 h_S_) main_v16 main_c_5
  let main_v18 : IVec S_ 1 := andi main_v13 main_v17
  let main_v19 : FVec F S1024x256 .f32 := Host.absf main_arg4
  let main_cst_6 : FVec F S_ .f32 := constant S_ .f32 0x7F800000#32
  let main_v20 : FVec F S1024x256 .f32 := broadcastInDim S1024x256 ![] bcast_S_S1024x256 main_cst_6
  let main_v21 : IVec S1024x256 1 := cmpf .olt main_v19 main_v20
  let main_c_7 : IVec S_ 1 := constantI S_ 1 1#1
  let main_v22 : IVec S_ 1 := (fun x v => Host.reduce IntOp.andi x v reducesTo_S1024x256_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S32768x256 .f32) (main_arg1 : FVec F S32768x256 .f32) (main_arg2 : FVec F S32768x256 .f32) (main_arg3 : FVec F S1024x256 .f32) (main_arg4 : FVec F S1024x256 .f32) (main_arg5 : FVec F S1024 .f32) (main_arg6 : FVec F S1024 .f32) (main_arg7 : FVec F S256x1024 .f32) (main_arg8 : FVec F S256x1024 .f32) : IVec S_ 1 :=
  let main_v0 : FVec F S32768x256 .f32 := Host.absf main_arg0
  let main_cst : FVec F S_ .f32 := constant S_ .f32 0x7F800000#32
  let main_v1 : FVec F S32768x256 .f32 := broadcastInDim S32768x256 ![] bcast_S_S32768x256 main_cst
  let main_v2 : IVec S32768x256 1 := cmpf .olt main_v0 main_v1
  let main_c : IVec S_ 1 := constantI S_ 1 1#1
  let main_v3 : IVec S_ 1 := (fun x v => Host.reduce IntOp.andi x v reducesTo_S32768x256_S_d0_1 h_S_) main_v2 main_c
  let main_v4 : FVec F S32768x256 .f32 := Host.absf main_arg1
  let main_cst_0 : FVec F S_ .f32 := constant S_ .f32 0x7F800000#32
  let main_v5 : FVec F S32768x256 .f32 := broadcastInDim S32768x256 ![] bcast_S_S32768x256 main_cst_0
  let main_v6 : IVec S32768x256 1 := cmpf .olt main_v4 main_v5
  let main_c_1 : IVec S_ 1 := constantI S_ 1 1#1
  let main_v7 : IVec S_ 1 := (fun x v => Host.reduce IntOp.andi x v reducesTo_S32768x256_S_d0_1 h_S_) main_v6 main_c_1
  let main_v8 : IVec S_ 1 := andi main_v3 main_v7
  let main_v9 : FVec F S32768x256 .f32 := Host.absf main_arg2
  let main_cst_2 : FVec F S_ .f32 := constant S_ .f32 0x7F800000#32
  let main_v10 : FVec F S32768x256 .f32 := broadcastInDim S32768x256 ![] bcast_S_S32768x256 main_cst_2
  let main_v11 : IVec S32768x256 1 := cmpf .olt main_v9 main_v10
  let main_c_3 : IVec S_ 1 := constantI S_ 1 1#1
  let main_v12 : IVec S_ 1 := (fun x v => Host.reduce IntOp.andi x v reducesTo_S32768x256_S_d0_1 h_S_) main_v11 main_c_3
  let main_v13 : IVec S_ 1 := andi main_v8 main_v12
  let main_v14 : FVec F S1024x256 .f32 := Host.absf main_arg3
  let main_cst_4 : FVec F S_ .f32 := constant S_ .f32 0x7F800000#32
  let main_v15 : FVec F S1024x256 .f32 := broadcastInDim S1024x256 ![] bcast_S_S1024x256 main_cst_4
  let main_v16 : IVec S1024x256 1 := cmpf .olt main_v14 main_v15
  fn_part1 (F := F) main_arg4 main_arg5 main_arg6 main_arg7 main_arg8 main_v13 main_v16
-- ==== Kernel.lean ====
abbrev S32768x256 : Shape := ⟨2, ![32768, 256]⟩
abbrev S1024x256 : Shape := ⟨2, ![1024, 256]⟩
abbrev S1024 : Shape := ⟨1, ![1024]⟩
abbrev S256x1024 : Shape := ⟨2, ![256, 1024]⟩
abbrev S_ : Shape := ⟨0, ![]⟩
abbrev S512x1024 : Shape := ⟨2, ![512, 1024]⟩
abbrev S1x1024 : Shape := ⟨2, ![1, 1024]⟩
abbrev S2048x256 : Shape := ⟨2, ![2048, 256]⟩
abbrev S2048x1024 : Shape := ⟨2, ![2048, 1024]⟩
abbrev S2048x512 : Shape := ⟨2, ![2048, 512]⟩

abbrev nBuf : Space → Nat
  | .hbm => 93
  | .vmem => 13
  | .smem => 0
  | _ => 0

abbrev bufTy : (tb : Table) → Fin (tcTables nBuf tb) → BufTy
  | .hbm, ⟨0, _⟩ => ⟨S32768x256, .f32⟩
  | .hbm, ⟨1, _⟩ => ⟨S32768x256, .f32⟩
  | .hbm, ⟨2, _⟩ => ⟨S32768x256, .f32⟩
  | .hbm, ⟨3, _⟩ => ⟨S1024x256, .f32⟩
  | .hbm, ⟨4, _⟩ => ⟨S1024x256, .f32⟩
  | .hbm, ⟨5, _⟩ => ⟨S1024, .f32⟩
  | .hbm, ⟨6, _⟩ => ⟨S1024, .f32⟩
  | .hbm, ⟨7, _⟩ => ⟨S256x1024, .f32⟩
  | .hbm, ⟨8, _⟩ => ⟨S256x1024, .f32⟩
  | .hbm, ⟨9, _⟩ => ⟨S_, .f32⟩
  | .hbm, ⟨10, _⟩ => ⟨S_, .f32⟩
  | .hbm, ⟨11, _⟩ => ⟨S256x1024, .f32⟩
  | .hbm, ⟨12, _⟩ => ⟨S256x1024, .f32⟩
  | .hbm, ⟨13, _⟩ => ⟨S_, .f32⟩
  | .hbm, ⟨14, _⟩ => ⟨S256x1024, .f32⟩
  | .hbm, ⟨15, _⟩ => ⟨S256x1024, .f32⟩
  | .hbm, ⟨16, _⟩ => ⟨S_, .f32⟩
  | .hbm, ⟨17, _⟩ => ⟨S_, .f32⟩
  | .hbm, ⟨18, _⟩ => ⟨S256x1024, .f32⟩
  | .hbm, ⟨19, _⟩ => ⟨S256x1024, .f32⟩
  | .hbm, ⟨20, _⟩ => ⟨S_, .f32⟩
  | .hbm, ⟨21, _⟩ => ⟨S256x1024, .f32⟩
  | .hbm, ⟨22, _⟩ => ⟨S256x1024, .f32⟩
  | .hbm, ⟨23, _⟩ => ⟨S256x1024, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S_, .f32⟩
  | .hbm, ⟨33, _⟩ => ⟨S256x1024, .f32⟩
  | .hbm, ⟨34, _⟩ => ⟨S256x1024, .f32⟩
  | .hbm, ⟨35, _⟩ => ⟨S256x1024, .f32⟩
  | .hbm, ⟨36, _⟩ => ⟨S_, .f32⟩
  | .hbm, ⟨37, _⟩ => ⟨S256x1024, .f32⟩
  | .hbm, ⟨38, _⟩ => ⟨S256x1024, .f32⟩
  | .hbm, ⟨39, _⟩ => ⟨S256x1024, .f32⟩
  | .hbm, ⟨40, _⟩ => ⟨S256x1024, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S256x1024, .f32⟩
  | .hbm, ⟨45, _⟩ => ⟨S256x1024, .f32⟩
  | .hbm, ⟨46, _⟩ => ⟨S_, .f32⟩
  | .hbm, ⟨47, _⟩ => ⟨S256x1024, .f32⟩
  | .hbm, ⟨48, _⟩ => ⟨S256x1024, .f32⟩
  | .hbm, ⟨49, _⟩ => ⟨S_, .f32⟩
  | .hbm, ⟨50, _⟩ => ⟨S256x1024, .f32⟩
  | .hbm, ⟨51, _⟩ => ⟨S256x1024, .f32⟩
  | .hbm, ⟨52, _⟩ => ⟨S256x1024, .f32⟩
  | .hbm, ⟨53, _⟩ => ⟨S_, .f32⟩
  | .hbm, ⟨54, _⟩ => ⟨S256x1024, .f32⟩
  | .hbm, ⟨55, _⟩ => ⟨S256x1024, .f32⟩
  | .hbm, ⟨56, _⟩ => ⟨S256x1024, .f32⟩
  | .hbm, ⟨57, _⟩ => ⟨S512x1024, .f32⟩
  | .hbm, ⟨58, _⟩ => ⟨S512x1024, .bf16⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S1024, .f32⟩
  | .hbm, ⟨63, _⟩ => ⟨S1024, .f32⟩
  | .hbm, ⟨64, _⟩ => ⟨S_, .f32⟩
  | .hbm, ⟨65, _⟩ => ⟨S1024, .f32⟩
  | .hbm, ⟨66, _⟩ => ⟨S1024, .f32⟩
  | .hbm, ⟨67, _⟩ => ⟨S_, .f32⟩
  | .hbm, ⟨68, _⟩ => ⟨S1024, .f32⟩
  | .hbm, ⟨69, _⟩ => ⟨S1024, .f32⟩
  | .hbm, ⟨70, _⟩ => ⟨S1024, .f32⟩
  | .hbm, ⟨71, _⟩ => ⟨S_, .f32⟩
  | .hbm, ⟨72, _⟩ => ⟨S1024, .f32⟩
  | .hbm, ⟨73, _⟩ => ⟨S1024, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S1024, .f32⟩
  | .hbm, ⟨78, _⟩ => ⟨S1024, .f32⟩
  | .hbm, ⟨79, _⟩ => ⟨S_, .f32⟩
  | .hbm, ⟨80, _⟩ => ⟨S1024, .f32⟩
  | .hbm, ⟨81, _⟩ => ⟨S1024, .f32⟩
  | .hbm, ⟨82, _⟩ => ⟨S_, .f32⟩
  | .hbm, ⟨83, _⟩ => ⟨S1024, .f32⟩
  | .hbm, ⟨84, _⟩ => ⟨S1024, .f32⟩
  | .hbm, ⟨85, _⟩ => ⟨S1024, .f32⟩
  | .hbm, ⟨86, _⟩ => ⟨S_, .f32⟩
  | .hbm, ⟨87, _⟩ => ⟨S1024, .f32⟩
  | .hbm, ⟨88, _⟩ => ⟨S1024, .f32⟩
  | .hbm, ⟨89, _⟩ => ⟨S1024, .f32⟩
  | .hbm, ⟨90, _⟩ => ⟨S1x1024, .f32⟩
  | .hbm, ⟨91, _⟩ => ⟨S32768x256, .f32⟩
  | .hbm, ⟨92, _⟩ => ⟨S32768x256, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S512x1024, .bf16⟩
  | .local _ .vmem, ⟨7, _⟩ => ⟨S1x1024, .f32⟩
  | .local _ .vmem, ⟨8, _⟩ => ⟨S2048x256, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | .local _ .vmem, ⟨12, _⟩ => ⟨S2048x1024, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_3 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v11 : Ref sig .tc := ⟨.hbm, 31, rfl⟩
abbrev main_cst_5 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_6 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_7 : Ref sig .tc := ⟨.hbm, 41, rfl⟩
abbrev main_cst_8 : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_v19 : Ref sig .tc := ⟨.hbm, 48, rfl⟩
abbrev main_cst_9 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_cst_10 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_cst_11 : Ref sig .tc := ⟨.hbm, 59, rfl⟩
abbrev main_cst_12 : Ref sig .tc := ⟨.hbm, 60, rfl⟩
abbrev main_call4_v0 : Ref sig .tc := ⟨.hbm, 61, rfl⟩
abbrev main_call4_v1 : Ref sig .tc := ⟨.hbm, 62, rfl⟩
abbrev main_call4_v2 : Ref sig .tc := ⟨.hbm, 63, rfl⟩
abbrev main_call4_v3 : Ref sig .tc := ⟨.hbm, 64, rfl⟩
abbrev main_call4_v4 : Ref sig .tc := ⟨.hbm, 65, rfl⟩
abbrev main_v28 : Ref sig .tc := ⟨.hbm, 66, rfl⟩
abbrev main_cst_13 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_cst_14 : Ref sig .tc := ⟨.hbm, 71, rfl⟩
abbrev main_v32 : Ref sig .tc := ⟨.hbm, 72, rfl⟩
abbrev main_v33 : Ref sig .tc := ⟨.hbm, 73, rfl⟩
abbrev main_cst_15 : Ref sig .tc := ⟨.hbm, 74, rfl⟩
abbrev main_cst_16 : Ref sig .tc := ⟨.hbm, 75, rfl⟩
abbrev main_call6_v0 : Ref sig .tc := ⟨.hbm, 76, rfl⟩
abbrev main_call6_v1 : Ref sig .tc := ⟨.hbm, 77, rfl⟩
abbrev main_call6_v2 : Ref sig .tc := ⟨.hbm, 78, rfl⟩
abbrev main_call6_v3 : Ref sig .tc := ⟨.hbm, 79, rfl⟩
abbrev main_call6_v4 : Ref sig .tc := ⟨.hbm, 80, rfl⟩
abbrev main_v34 : Ref sig .tc := ⟨.hbm, 81, rfl⟩
abbrev main_cst_17 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_cst_18 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42_0 : Ref sig .tc := ⟨.hbm, 91, rfl⟩
abbrev main_v42_1 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  reducesTo_S1024x256_S_d0_1 : S1024x256.ReducesTo [0, 1] S_
  h_S_ : 0 < S_.numel
  bcast_S_S256x1024 : S_.BroadcastsInDim S256x1024 (![] : Fin 0 → Fin S256x1024.rank)
  transposes_S1024x256_S256x1024_1_0 : S1024x256.Transposes [1, 0] S256x1024
  concatenates_S256x1024_S256x1024_S512x1024_d0 : Shape.Concatenates [S256x1024, S256x1024] S512x1024 0
  bitsLt_bf16_f32 : FTy.bits .bf16 < FTy.bits .f32
  bcast_S_S1024 : S_.BroadcastsInDim S1024 (![] : Fin 0 → Fin S1024.rank)
  shapeCasts_S1024_S1x1024 : S1024.ShapeCasts S1x1024
  inb_S2048x256_S2048x256_0_0 : ∀ a, (![0, 0] : Fin 2 → Nat) a + S2048x256.size a ≤ S2048x256.size a
  h_S2048x256 : 0 < S2048x256.numel
  concatenates_S2048x256_S2048x256_S2048x512_d1 : Shape.Concatenates [S2048x256, S2048x256] S2048x512 1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x1024_S2048x256_0_0 : ∀ a, (![0, 0] : Fin 2 → Nat) a + S2048x256.size a ≤ S2048x1024.size a
  inb_S2048x1024_S2048x256_0_256 : ∀ a, (![0, 256] : Fin 2 → Nat) a + S2048x256.size a ≤ S2048x1024.size a
  inb_S2048x1024_S2048x256_0_512 : ∀ a, (![0, 512] : Fin 2 → Nat) a + S2048x256.size a ≤ S2048x1024.size a
  inb_S2048x1024_S2048x256_0_768 : ∀ a, (![0, 768] : Fin 2 → Nat) a + S2048x256.size a ≤ S2048x1024.size a
  dot_S2048x512_S512x1024_S2048x1024_1_0_0_1_n_n_wf : DotDims.WF S2048x512 S512x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S32768x256.size a
  hwx0_0 : ∀ i : grid0.Coords, EltTy.bits .f32 = 32 ∨ (Rect.block (s := S32768x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S32768x256.size a
  hwx0_1 : ∀ i : grid0.Coords, EltTy.bits .f32 = 32 ∨ (Rect.block (s := S32768x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S32768x256.size a
  hwx0_2 : ∀ i : grid0.Coords, EltTy.bits .f32 = 32 ∨ (Rect.block (s := S32768x256) S2048x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S512x1024.size a
  hwx0_3 : ∀ i : grid0.Coords, EltTy.bits .bf16 = 32 ∨ (Rect.block (s := S512x1024) S512x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x256.size a ≤ S32768x256.size a
  hwx0_5 : ∀ i : grid0.Coords, EltTy.bits .f32 = 32 ∨ (Rect.block (s := S32768x256) S2048x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x256.size a ≤ S32768x256.size a
  hwx0_6 : ∀ i : grid0.Coords, EltTy.bits .f32 = 32 ∨ (Rect.block (s := S32768x256) S2048x256.size (cc0_transform_6 i) (hinb0_6 i)).WholeWords (EltTy.packing .f32)

variable [Facts₀]

def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27) S512x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v41) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v42_0) S2048x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v42_1) S2048x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32768x256 : Shape := ⟨2, ![32768, 256]⟩
abbrev S1024x256 : Shape := ⟨2, ![1024, 256]⟩
abbrev S1024 : Shape := ⟨1, ![1024]⟩
abbrev S256x1024 : Shape := ⟨2, ![256, 1024]⟩
abbrev S_ : Shape := ⟨0, ![]⟩
abbrev S32768x1024 : Shape := ⟨2, ![32768, 1024]⟩
abbrev S1x1024 : Shape := ⟨2, ![1, 1024]⟩

abbrev nBuf : Space → Nat
  | .hbm => 220
  | .vmem => 0
  | .smem => 0
  | _ => 0

abbrev hbmTy0_0 (i : Nat) : BufTy := match i % 128 with
  | 0 => ⟨S32768x256, .f32⟩
  | 1 => ⟨S32768x256, .f32⟩
  | 2 => ⟨S32768x256, .f32⟩
  | 3 => ⟨S1024x256, .f32⟩
  | 4 => ⟨S1024x256, .f32⟩
  | 5 => ⟨S1024, .f32⟩
  | 6 => ⟨S1024, .f32⟩
  | 7 => ⟨S256x1024, .f32⟩
  | 8 => ⟨S256x1024, .f32⟩
  | 9 => ⟨S_, .f32⟩
  | 10 => ⟨S_, .f32⟩
  | 11 => ⟨S256x1024, .f32⟩
  | 12 => ⟨S256x1024, .f32⟩
  | 13 => ⟨S_, .f32⟩
  | 14 => ⟨S256x1024, .f32⟩
  | 15 => ⟨S256x1024, .f32⟩
  | 16 => ⟨S_, .f32⟩
  | 17 => ⟨S_, .f32⟩
  | 18 => ⟨S256x1024, .f32⟩
  | 19 => ⟨S256x1024, .f32⟩
  | 20 => ⟨S_, .f32⟩
  | 21 => ⟨S256x1024, .f32⟩
  | 22 => ⟨S256x1024, .f32⟩
  | 23 => ⟨S256x1024, .f32⟩
  | 24 => ⟨S_, .f32⟩
  | 25 => ⟨S_, .f32⟩
  | 26 => ⟨S_, .f32⟩
  | 27 => ⟨S256x1024, .f32⟩
  | 28 => ⟨S256x1024, .f32⟩
  | 29 => ⟨S_, .f32⟩
  | 30 => ⟨S256x1024, .f32⟩
  | 31 => ⟨S256x1024, .f32⟩
  | 32 => ⟨S_, .f32⟩
  | 33 => ⟨S256x1024, .f32⟩
  | 34 => ⟨S256x1024, .f32⟩
  | 35 => ⟨S256x1024, .f32⟩
  | 36 => ⟨S_, .f32⟩
  | 37 => ⟨S256x1024, .f32⟩
  | 38 => ⟨S256x1024, .f32⟩
  | 39 => ⟨S256x1024, .f32⟩
  | 40 => ⟨S32768x1024, .f32⟩
  | 41 => ⟨S_, .f32⟩
  | 42 => ⟨S_, .f32⟩
  | 43 => ⟨S_, .f32⟩
  | 44 => ⟨S1024, .f32⟩
  | 45 => ⟨S1024, .f32⟩
  | 46 => ⟨S_, .f32⟩
  | 47 => ⟨S1024, .f32⟩
  | 48 => ⟨S1024, .f32⟩
  | 49 => ⟨S_, .f32⟩
  | 50 => ⟨S1024, .f32⟩
  | 51 => ⟨S1024, .f32⟩
  | 52 => ⟨S1024, .f32⟩
  | 53 => ⟨S_, .f32⟩
  | 54 => ⟨S1024, .f32⟩
  | 55 => ⟨S1024, .f32⟩
  | 56 => ⟨S1x1024, .f32⟩
  | 57 => ⟨S32768x1024, .f32⟩
  | 58 => ⟨S32768x1024, .f32⟩
  | 59 => ⟨S256x1024, .f32⟩
  | 60 => ⟨S_, .f32⟩
  | 61 => ⟨S_, .f32⟩
  | 62 => ⟨S_, .f32⟩
  | 63 => ⟨S256x1024, .f32⟩
  | 64 => ⟨S256x1024, .f32⟩
  | 65 => ⟨S_, .f32⟩
  | 66 => ⟨S256x1024, .f32⟩
  | 67 => ⟨S256x1024, .f32⟩
  | 68 => ⟨S_, .f32⟩
  | 69 => ⟨S256x1024, .f32⟩
  | 70 => ⟨S256x1024, .f32⟩
  | 71 => ⟨S256x1024, .f32⟩
  | 72 => ⟨S_, .f32⟩
  | 73 => ⟨S256x1024, .f32⟩
  | 74 => ⟨S256x1024, .f32⟩
  | 75 => ⟨S256x1024, .f32⟩
  | 76 => ⟨S32768x1024, .f32⟩
  | 77 => ⟨S32768x1024, .f32⟩
  | 78 => ⟨S_, .f32⟩
  | 79 => ⟨S_, .f32⟩
  | 80 => ⟨S_, .f32⟩
  | 81 => ⟨S1024, .f32⟩
  | 82 => ⟨S1024, .f32⟩
  | 83 => ⟨S_, .f32⟩
  | 84 => ⟨S1024, .f32⟩
  | 85 => ⟨S1024, .f32⟩
  | 86 => ⟨S_, .f32⟩
  | 87 => ⟨S1024, .f32⟩
  | 88 => ⟨S1024, .f32⟩
  | 89 => ⟨S1024, .f32⟩
  | 90 => ⟨S_, .f32⟩
  | 91 => ⟨S1024, .f32⟩
  | 92 => ⟨S1024, .f32⟩
  | 93 => ⟨S1x1024, .f32⟩
  | 94 => ⟨S32768x1024, .f32⟩
  | 95 => ⟨S32768x1024, .f32⟩
  | 96 => ⟨S32768x256, .f32⟩
  | 97 => ⟨S32768x256, .f32⟩
  | 98 => ⟨S32768x256, .f32⟩
  | 99 => ⟨S32768x256, .f32⟩
  | 100 => ⟨S32768x256, .f32⟩
  | 101 => ⟨S32768x256, .f32⟩
  | 102 => ⟨S_, .f32⟩
  | 103 => ⟨S32768x256, .f32⟩
  | 104 => ⟨S32768x256, .f32⟩
  | 105 => ⟨S_, .f32⟩
  | 106 => ⟨S32768x256, .f32⟩
  | 107 => ⟨S32768x256, .f32⟩
  | 108 => ⟨S_, .f32⟩
  | 109 => ⟨S_, .f32⟩
  | 110 => ⟨S_, .f32⟩
  | 111 => ⟨S32768x256, .f32⟩
  | 112 => ⟨S32768x256, .f32⟩
  | 113 => ⟨S_, .f32⟩
  | 114 => ⟨S32768x256, .f32⟩
  | 115 => ⟨S32768x256, .f32⟩
  | 116 => ⟨S_, .f32⟩
  | 117 => ⟨S32768x256, .f32⟩
  | 118 => ⟨S32768x256, .f32⟩
  | 119 => ⟨S32768x256, .f32⟩
  | 120 => ⟨S_, .f32⟩
  | 121 => ⟨S32768x256, .f32⟩
  | 122 => ⟨S32768x256, .f32⟩
  | 123 => ⟨S32768x256, .f32⟩
  | 124 => ⟨S32768x256, .f32⟩
  | 125 => ⟨S_, .f32⟩
  | 126 => ⟨S32768x256, .f32⟩
  | 127 => ⟨S32768x256, .f32⟩
  | _ => ⟨S32768x256, .f32⟩

abbrev hbmTy0_1 (i : Nat) : BufTy := match i % 128 with
  | 0 => ⟨S_, .f32⟩
  | 1 => ⟨S32768x256, .f32⟩
  | 2 => ⟨S32768x256, .f32⟩
  | 3 => ⟨S_, .f32⟩
  | 4 => ⟨S_, .f32⟩
  | 5 => ⟨S_, .f32⟩
  | 6 => ⟨S32768x256, .f32⟩
  | 7 => ⟨S32768x256, .f32⟩
  | 8 => ⟨S_, .f32⟩
  | 9 => ⟨S32768x256, .f32⟩
  | 10 => ⟨S32768x256, .f32⟩
  | 11 => ⟨S_, .f32⟩
  | 12 => ⟨S32768x256, .f32⟩
  | 13 => ⟨S32768x256, .f32⟩
  | 14 => ⟨S32768x256, .f32⟩
  | 15 => ⟨S_, .f32⟩
  | 16 => ⟨S32768x256, .f32⟩
  | 17 => ⟨S32768x256, .f32⟩
  | 18 => ⟨S32768x256, .f32⟩
  | 19 => ⟨S_, .f32⟩
  | 20 => ⟨S_, .f32⟩
  | 21 => ⟨S_, .f32⟩
  | 22 => ⟨S32768x256, .f32⟩
  | 23 => ⟨S32768x256, .f32⟩
  | 24 => ⟨S_, .f32⟩
  | 25 => ⟨S32768x256, .f32⟩
  | 26 => ⟨S32768x256, .f32⟩
  | 27 => ⟨S_, .f32⟩
  | 28 => ⟨S32768x256, .f32⟩
  | 29 => ⟨S32768x256, .f32⟩
  | 30 => ⟨S32768x256, .f32⟩
  | 31 => ⟨S_, .f32⟩
  | 32 => ⟨S32768x256, .f32⟩
  | 33 => ⟨S32768x256, .f32⟩
  | 34 => ⟨S32768x256, .f32⟩
  | 35 => ⟨S32768x256, .f32⟩
  | 36 => ⟨S_, .f32⟩
  | 37 => ⟨S32768x256, .f32⟩
  | 38 => ⟨S32768x256, .f32⟩
  | 39 => ⟨S_, .f32⟩
  | 40 => ⟨S32768x256, .f32⟩
  | 41 => ⟨S32768x256, .f32⟩
  | 42 => ⟨S_, .f32⟩
  | 43 => ⟨S_, .f32⟩
  | 44 => ⟨S_, .f32⟩
  | 45 => ⟨S32768x256, .f32⟩
  | 46 => ⟨S32768x256, .f32⟩
  | 47 => ⟨S_, .f32⟩
  | 48 => ⟨S32768x256, .f32⟩
  | 49 => ⟨S32768x256, .f32⟩
  | 50 => ⟨S_, .f32⟩
  | 51 => ⟨S32768x256, .f32⟩
  | 52 => ⟨S32768x256, .f32⟩
  | 53 => ⟨S32768x256, .f32⟩
  | 54 => ⟨S_, .f32⟩
  | 55 => ⟨S32768x256, .f32⟩
  | 56 => ⟨S32768x256, .f32⟩
  | 57 => ⟨S32768x256, .f32⟩
  | 58 => ⟨S32768x256, .f32⟩
  | 59 => ⟨S32768x256, .f32⟩
  | 60 => ⟨S_, .f32⟩
  | 61 => ⟨S_, .f32⟩
  | 62 => ⟨S_, .f32⟩
  | 63 => ⟨S32768x256, .f32⟩
  | 64 => ⟨S32768x256, .f32⟩
  | 65 => ⟨S_, .f32⟩
  | 66 => ⟨S32768x256, .f32⟩
  | 67 => ⟨S32768x256, .f32⟩
  | 68 => ⟨S_, .f32⟩
  | 69 => ⟨S32768x256, .f32⟩
  | 70 => ⟨S32768x256, .f32⟩
  | 71 => ⟨S32768x256, .f32⟩
  | 72 => ⟨S_, .f32⟩
  | 73 => ⟨S32768x256, .f32⟩
  | 74 => ⟨S32768x256, .f32⟩
  | 75 => ⟨S32768x256, .f32⟩
  | 76 => ⟨S32768x256, .f32⟩
  | 77 => ⟨S_, .f32⟩
  | 78 => ⟨S_, .f32⟩
  | 79 => ⟨S_, .f32⟩
  | 80 => ⟨S32768x256, .f32⟩
  | 81 => ⟨S32768x256, .f32⟩
  | 82 => ⟨S_, .f32⟩
  | 83 => ⟨S32768x256, .f32⟩
  | 84 => ⟨S32768x256, .f32⟩
  | 85 => ⟨S_, .f32⟩
  | 86 => ⟨S32768x256, .f32⟩
  | 87 => ⟨S32768x256, .f32⟩
  | 88 => ⟨S32768x256, .f32⟩
  | 89 => ⟨S_, .f32⟩
  | 90 => ⟨S32768x256, .f32⟩
  | 91 => ⟨S32768x256, .f32⟩
  | _ => ⟨S32768x256, .f32⟩

abbrev hbmTy (i : Nat) : BufTy := match i / 128 with
  | 0 => hbmTy0_0 i
  | 1 => hbmTy0_1 i
  | _ => ⟨S32768x256, .f32⟩

abbrev bufTy : (tb : Table) → Fin (tcTables nBuf tb) → BufTy
  | .hbm, ⟨i, _⟩ => hbmTy i
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_3 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v11 : Ref sig .tc := ⟨.hbm, 31, rfl⟩
abbrev main_cst_5 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_6 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_7 : Ref sig .tc := ⟨.hbm, 41, rfl⟩
abbrev main_cst_8 : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_v19 : Ref sig .tc := ⟨.hbm, 48, rfl⟩
abbrev main_cst_9 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_cst_10 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_cst_11 : Ref sig .tc := ⟨.hbm, 60, rfl⟩
abbrev main_cst_12 : Ref sig .tc := ⟨.hbm, 61, rfl⟩
abbrev main_call4_v0 : Ref sig .tc := ⟨.hbm, 62, rfl⟩
abbrev main_call4_v1 : Ref sig .tc := ⟨.hbm, 63, rfl⟩
abbrev main_call4_v2 : Ref sig .tc := ⟨.hbm, 64, rfl⟩
abbrev main_call4_v3 : Ref sig .tc := ⟨.hbm, 65, rfl⟩
abbrev main_call4_v4 : Ref sig .tc := ⟨.hbm, 66, rfl⟩
abbrev main_v29 : Ref sig .tc := ⟨.hbm, 67, rfl⟩
abbrev main_cst_13 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_cst_14 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_cst_15 : Ref sig .tc := ⟨.hbm, 78, rfl⟩
abbrev main_cst_16 : Ref sig .tc := ⟨.hbm, 79, rfl⟩
abbrev main_call6_v0 : Ref sig .tc := ⟨.hbm, 80, rfl⟩
abbrev main_call6_v1 : Ref sig .tc := ⟨.hbm, 81, rfl⟩
abbrev main_call6_v2 : Ref sig .tc := ⟨.hbm, 82, rfl⟩
abbrev main_call6_v3 : Ref sig .tc := ⟨.hbm, 83, rfl⟩
abbrev main_call6_v4 : Ref sig .tc := ⟨.hbm, 84, rfl⟩
abbrev main_v38 : Ref sig .tc := ⟨.hbm, 85, rfl⟩
abbrev main_cst_17 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_cst_18 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_cst_19 : Ref sig .tc := ⟨.hbm, 102, rfl⟩
abbrev main_v53 : Ref sig .tc := ⟨.hbm, 103, rfl⟩
abbrev main_v54 : Ref sig .tc := ⟨.hbm, 104, rfl⟩
abbrev main_cst_20 : Ref sig .tc := ⟨.hbm, 105, rfl⟩
abbrev main_v55 : Ref sig .tc := ⟨.hbm, 106, rfl⟩
abbrev main_v56 : Ref sig .tc := ⟨.hbm, 107, rfl⟩
abbrev main_cst_21 : Ref sig .tc := ⟨.hbm, 108, rfl⟩
abbrev main_cst_22 : Ref sig .tc := ⟨.hbm, 109, rfl⟩
abbrev main_call8_v0 : Ref sig .tc := ⟨.hbm, 110, rfl⟩
abbrev main_call8_v1 : Ref sig .tc := ⟨.hbm, 111, rfl⟩
abbrev main_call8_v2 : Ref sig .tc := ⟨.hbm, 112, rfl⟩
abbrev main_call8_v3 : Ref sig .tc := ⟨.hbm, 113, rfl⟩
abbrev main_call8_v4 : Ref sig .tc := ⟨.hbm, 114, rfl⟩
abbrev main_v57 : Ref sig .tc := ⟨.hbm, 115, rfl⟩
abbrev main_cst_23 : Ref sig .tc := ⟨.hbm, 116, rfl⟩
abbrev main_v58 : Ref sig .tc := ⟨.hbm, 117, rfl⟩
abbrev main_v59 : Ref sig .tc := ⟨.hbm, 118, rfl⟩
abbrev main_v60 : Ref sig .tc := ⟨.hbm, 119, rfl⟩
abbrev main_cst_24 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_cst_25 : Ref sig .tc := ⟨.hbm, 125, rfl⟩
abbrev main_v65 : Ref sig .tc := ⟨.hbm, 126, rfl⟩
abbrev main_v66 : Ref sig .tc := ⟨.hbm, 127, rfl⟩
abbrev main_cst_26 : Ref sig .tc := ⟨.hbm, 128, rfl⟩
abbrev main_v67 : Ref sig .tc := ⟨.hbm, 129, rfl⟩
abbrev main_v68 : Ref sig .tc := ⟨.hbm, 130, rfl⟩
abbrev main_cst_27 : Ref sig .tc := ⟨.hbm, 131, rfl⟩
abbrev main_cst_28 : Ref sig .tc := ⟨.hbm, 132, rfl⟩
abbrev main_call10_v0 : Ref sig .tc := ⟨.hbm, 133, rfl⟩
abbrev main_call10_v1 : Ref sig .tc := ⟨.hbm, 134, rfl⟩
abbrev main_call10_v2 : Ref sig .tc := ⟨.hbm, 135, rfl⟩
abbrev main_call10_v3 : Ref sig .tc := ⟨.hbm, 136, rfl⟩
abbrev main_call10_v4 : Ref sig .tc := ⟨.hbm, 137, rfl⟩
abbrev main_v69 : Ref sig .tc := ⟨.hbm, 138, rfl⟩
abbrev main_cst_29 : Ref sig .tc := ⟨.hbm, 139, rfl⟩
abbrev main_v70 : Ref sig .tc := ⟨.hbm, 140, rfl⟩
abbrev main_v71 : Ref sig .tc := ⟨.hbm, 141, rfl⟩
abbrev main_v72 : Ref sig .tc := ⟨.hbm, 142, rfl⟩
abbrev main_cst_30 : Ref sig .tc := ⟨.hbm, 143, rfl⟩
abbrev main_v73 : Ref sig .tc := ⟨.hbm, 144, rfl⟩
abbrev main_v74 : Ref sig .tc := ⟨.hbm, 145, rfl⟩
abbrev main_v75 : Ref sig .tc := ⟨.hbm, 146, rfl⟩
abbrev main_cst_31 : Ref sig .tc := ⟨.hbm, 147, rfl⟩
abbrev main_cst_32 : Ref sig .tc := ⟨.hbm, 148, rfl⟩
abbrev main_call12_v0 : Ref sig .tc := ⟨.hbm, 149, rfl⟩
abbrev main_call12_v1 : Ref sig .tc := ⟨.hbm, 150, rfl⟩
abbrev main_call12_v2 : Ref sig .tc := ⟨.hbm, 151, rfl⟩
abbrev main_call12_v3 : Ref sig .tc := ⟨.hbm, 152, rfl⟩
abbrev main_call12_v4 : Ref sig .tc := ⟨.hbm, 153, rfl⟩
abbrev main_v76 : Ref sig .tc := ⟨.hbm, 154, rfl⟩
abbrev main_cst_33 : Ref sig .tc := ⟨.hbm, 155, rfl⟩
abbrev main_v77 : Ref sig .tc := ⟨.hbm, 156, rfl⟩
abbrev main_v78 : Ref sig .tc := ⟨.hbm, 157, rfl⟩
abbrev main_v79 : Ref sig .tc := ⟨.hbm, 158, rfl⟩
abbrev main_cst_34 : Ref sig .tc := ⟨.hbm, 159, rfl⟩
abbrev main_v80 : Ref sig .tc := ⟨.hbm, 160, rfl⟩
abbrev main_v81 : Ref sig .tc := ⟨.hbm, 161, rfl⟩
abbrev main_v82 : Ref sig .tc := ⟨.hbm, 162, rfl⟩
abbrev main_v83 : Ref sig .tc := ⟨.hbm, 163, rfl⟩
abbrev main_cst_35 : Ref sig .tc := ⟨.hbm, 164, rfl⟩
abbrev main_v84 : Ref sig .tc := ⟨.hbm, 165, rfl⟩
abbrev main_v85 : Ref sig .tc := ⟨.hbm, 166, rfl⟩
abbrev main_cst_36 : Ref sig .tc := ⟨.hbm, 167, rfl⟩
abbrev main_v86 : Ref sig .tc := ⟨.hbm, 168, rfl⟩
abbrev main_v87 : Ref sig .tc := ⟨.hbm, 169, rfl⟩
abbrev main_cst_37 : Ref sig .tc := ⟨.hbm, 170, rfl⟩
abbrev main_cst_38 : Ref sig .tc := ⟨.hbm, 171, rfl⟩
abbrev main_call14_v0 : Ref sig .tc := ⟨.hbm, 172, rfl⟩
abbrev main_call14_v1 : Ref sig .tc := ⟨.hbm, 173, rfl⟩
abbrev main_call14_v2 : Ref sig .tc := ⟨.hbm, 174, rfl⟩
abbrev main_call14_v3 : Ref sig .tc := ⟨.hbm, 175, rfl⟩
abbrev main_call14_v4 : Ref sig .tc := ⟨.hbm, 176, rfl⟩
abbrev main_v88 : Ref sig .tc := ⟨.hbm, 177, rfl⟩
abbrev main_cst_39 : Ref sig .tc := ⟨.hbm, 178, rfl⟩
abbrev main_v89 : Ref sig .tc := ⟨.hbm, 179, rfl⟩
abbrev main_v90 : Ref sig .tc := ⟨.hbm, 180, rfl⟩
abbrev main_v91 : Ref sig .tc := ⟨.hbm, 181, rfl⟩
abbrev main_cst_40 : Ref sig .tc := ⟨.hbm, 182, rfl⟩
abbrev main_v92 : Ref sig .tc := ⟨.hbm, 183, rfl⟩
abbrev main_v93 : Ref sig .tc := ⟨.hbm, 184, rfl⟩
abbrev main_v94 : Ref sig .tc := ⟨.hbm, 185, rfl⟩
abbrev main_v95 : Ref sig .tc := ⟨.hbm, 186, rfl⟩
abbrev main_v96 : Ref sig .tc := ⟨.hbm, 187, rfl⟩
abbrev main_cst_41 : Ref sig .tc := ⟨.hbm, 188, rfl⟩
abbrev main_cst_42 : Ref sig .tc := ⟨.hbm, 189, rfl⟩
abbrev main_call16_v0 : Ref sig .tc := ⟨.hbm, 190, rfl⟩
abbrev main_call16_v1 : Ref sig .tc := ⟨.hbm, 191, rfl⟩
abbrev main_call16_v2 : Ref sig .tc := ⟨.hbm, 192, rfl⟩
abbrev main_call16_v3 : Ref sig .tc := ⟨.hbm, 193, rfl⟩
abbrev main_call16_v4 : Ref sig .tc := ⟨.hbm, 194, rfl⟩
abbrev main_v97 : Ref sig .tc := ⟨.hbm, 195, rfl⟩
abbrev main_cst_43 : Ref sig .tc := ⟨.hbm, 196, rfl⟩
abbrev main_v98 : Ref sig .tc := ⟨.hbm, 197, rfl⟩
abbrev main_v99 : Ref sig .tc := ⟨.hbm, 198, rfl⟩
abbrev main_v100 : Ref sig .tc := ⟨.hbm, 199, rfl⟩
abbrev main_cst_44 : Ref sig .tc := ⟨.hbm, 200, rfl⟩
abbrev main_v101 : Ref sig .tc := ⟨.hbm, 201, rfl⟩
abbrev main_v102 : Ref sig .tc := ⟨.hbm, 202, rfl⟩
abbrev main_v103 : Ref sig .tc := ⟨.hbm, 203, rfl⟩
abbrev main_v104 : Ref sig .tc := ⟨.hbm, 204, rfl⟩
abbrev main_cst_45 : Ref sig .tc := ⟨.hbm, 205, rfl⟩
abbrev main_cst_46 : Ref sig .tc := ⟨.hbm, 206, rfl⟩
abbrev main_call18_v0 : Ref sig .tc := ⟨.hbm, 207, rfl⟩
abbrev main_call18_v1 : Ref sig .tc := ⟨.hbm, 208, rfl⟩
abbrev main_call18_v2 : Ref sig .tc := ⟨.hbm, 209, rfl⟩
abbrev main_call18_v3 : Ref sig .tc := ⟨.hbm, 210, rfl⟩
abbrev main_call18_v4 : Ref sig .tc := ⟨.hbm, 211, rfl⟩
abbrev main_v105 : Ref sig .tc := ⟨.hbm, 212, rfl⟩
abbrev main_cst_47 : Ref sig .tc := ⟨.hbm, 213, rfl⟩
abbrev main_v106 : Ref sig .tc := ⟨.hbm, 214, rfl⟩
abbrev main_v107 : Ref sig .tc := ⟨.hbm, 215, rfl⟩
abbrev main_v108 : Ref sig .tc := ⟨.hbm, 216, rfl⟩
abbrev main_cst_48 : Ref sig .tc := ⟨.hbm, 217, rfl⟩
abbrev main_v109 : Ref sig .tc := ⟨.hbm, 218, rfl⟩
abbrev main_v110 : Ref sig .tc := ⟨.hbm, 219, rfl⟩

abbrev nD : Nat := 1
abbrev τ : Topo := Topo.v7x

variable {F : FTy → Type} [FloatOps F]

class Facts₀ : Prop where
  reducesTo_S1024x256_S_d0_1 : S1024x256.ReducesTo [0, 1] S_
  h_S_ : 0 < S_.numel
  bcast_S_S256x1024 : S_.BroadcastsInDim S256x1024 (![] : Fin 0 → Fin S256x1024.rank)
  transposes_S1024x256_S256x1024_1_0 : S1024x256.Transposes [1, 0] S256x1024
  bcast_S_S1024 : S_.BroadcastsInDim S1024 (![] : Fin 0 → Fin S1024.rank)
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  slices_S32768x1024_S32768x256_0_0 : S32768x1024.Slices ![0, 0] S32768x256
  slices_S32768x1024_S32768x256_0_256 : S32768x1024.Slices ![0, 256] S32768x256
  slices_S32768x1024_S32768x256_0_512 : S32768x1024.Slices ![0, 512] S32768x256
  slices_S32768x1024_S32768x256_0_768 : S32768x1024.Slices ![0, 768] S32768x256
  bcast_S_S32768x256 : S_.BroadcastsInDim S32768x256 (![] : Fin 0 → Fin S32768x256.rank)
  dot_S32768x256_S256x1024_S32768x1024_1_0_0_1_n_n_wf : DotDims.WF S32768x256 S256x1024 S32768x1024 [1] [0] [0] [1] [] []

variable [Facts₀]

def dot_S32768x256_S256x1024_S32768x1024_1_0_0_1_n_n : DotDims S32768x256 S256x1024 S32768x1024 where
  lhsContracting := [1]
  rhsContracting := [0]
  lhsNonContracting := [0]
  rhsNonContracting := [1]
  lhsBatch := []
  rhsBatch := []
  wf := dot_S32768x256_S256x1024_S32768x1024_1_0_0_1_n_n_wf

class Facts : Prop extends Facts₀ where

variable [Facts]
-- ==== Proof.KernelBody.lean ====
/-
  The body of the kernel at one grid point, read as values.

  The body first stores the whole 2048 × 1024 block of gate pre-activations into its scratch buffer, then reads the four
  2048 × 256 column slices of it back (columns 0–255, 256–511, 512–767, 768–1023), and stores the new hidden state and
  the new cell state, each as one whole 2048 × 256 block. A load of a column slice of a buffer that one store filled
  whole reads that store's value at the slice's indices (`readCov_filled`); so what the body leaves in the two output
  blocks are the two terms `hyBlock` and `cyBlock` of the five input blocks (`hy_left`, `cy_left`).
-/
import proofs.«111287_j72035191488637_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Body

open Cert.KernelIdeal Cert.KernelIdeal.Gen

variable {F : FTy → Type} [FloatOps F]

theorem zero_offsets : (![0, 0] : Fin 2 → Nat) = fun _ => 0 := funext fun a => by fin_cases a <;> rfl

/-- A load through any rectangle, after ONE store that filled the whole buffer with `g`, reads `g` at the rectangle's
    indices. -/
theorem readCov_filled {sig : RefSig} {κ : Kind} {sp : Space} {S : Shape} {e : EltTy} (v : View sig κ sp S e)
    {off : Fin S.rank → Nat} (h : off = fun _ => 0) (inb : ∀ a, off a + S.size a ≤ S.size a)
    (g : S.Idx → Elt F e) (r : Rect S) :
    v.readCov [(⟨Rect.unit off S.size inb, g⟩ : View.Piece (Elt F) S e)] r.toLoadRect = View.ld g r := by
  rw [View.readCov_eq_canon_ld _ _ _ (fun y => ⟨_, List.mem_singleton_self _, View.mem_set_unit_zero h inb y⟩),
    View.canon_unit_zero h]

/-- The rectangles of the four column slices of the gate block. -/
abbrev sliceI : Rect S2048x1024 := Rect.unit (s := S2048x1024) ![0, 0] S2048x256.size inb_S2048x1024_S2048x256_0_0
abbrev sliceF : Rect S2048x1024 := Rect.unit (s := S2048x1024) ![0, 256] S2048x256.size inb_S2048x1024_S2048x256_0_256
abbrev sliceG : Rect S2048x1024 := Rect.unit (s := S2048x1024) ![0, 512] S2048x256.size inb_S2048x1024_S2048x256_0_512
abbrev sliceO : Rect S2048x1024 := Rect.unit (s := S2048x1024) ![0, 768] S2048x256.size inb_S2048x1024_S2048x256_0_768

section
variable (x0 x1 x2 : Vec F S2048x256 .f32) (x3 : Vec F S512x1024 .bf16) (x4 : Vec F S1x1024 .f32)

/-- The new cell state block: the cell update of the input, forget and cell gate slices and the old cell state block. -/
def cyBlock : Vec F S2048x256 .f32 :=
  k0_pay5 (k0_pay3 (View.ld (k0_pay2 x0 x1 x3 x4) sliceI)) (k0_pay4 (View.ld (k0_pay2 x0 x1 x3 x4) sliceF))
    (FloatOps.ofBits .f32 0x43800000#32) (View.ld (k0_pay2 x0 x1 x3 x4) sliceG) x2

/-- The new hidden state block: the output gate slice times the hyperbolic tangent of the new cell state, quantized. -/
def hyBlock : Vec F S2048x256 .f32 :=
  k0_pay1 (k0_pay6 (k0_pay3 (View.ld (k0_pay2 x0 x1 x3 x4) sliceI)) (k0_pay4 (View.ld (k0_pay2 x0 x1 x3 x4) sliceF))
    (FloatOps.ofBits .f32 0x43800000#32) (View.ld (k0_pay2 x0 x1 x3 x4) sliceG) (View.ld (k0_pay2 x0 x1 x3 x4) sliceO) x2)
    (FloatOps.ofBits .f32 0x3F800000#32) k0_pay7
end

/-- What the body leaves in the hidden-state output block. -/
theorem hy_left (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S2048x256 .f32) (harg6 : arg6.IsWhole) (arg7 : Memref sig .tc .vmem S2048x256 .f32) (harg7 : arg7.IsWhole) (arg8 : Memref sig .tc .vmem S2048x1024 .f32) (harg8 : arg8.IsWhole)
    (x0 : Vec F S2048x256 .f32) (x1 : Vec F S2048x256 .f32) (x2 : Vec F S2048x256 .f32) (x3 : Vec F S512x1024 .bf16) (x4 : Vec F S1x1024 .f32) :
    out0_A_5 c i arg1 harg1 arg2 harg2 arg3 harg3 arg4 harg4 arg5 harg5 arg6 harg6 arg7 harg7 arg8 harg8 x0 x1 x2 x3 x4 = hyBlock x0 x1 x2 x3 x4 := by
  unfold out0_A_5
  rw [View.read_writes_eq_canon _ _ _ (cover0_A_5 c i arg1 harg1 arg2 harg2 arg3 harg3 arg4 harg4 arg5 harg5 arg6 harg6 arg7 harg7 arg8 harg8 x0 x1 x2 x3 x4)]
  unfold kernelRun0_A
  dsimp only
  sl_unfold_words
  rw [View.canon_unit_zero zero_offsets]
  simp only [View.readAt_eq_ld, harg1.read_unread, harg2.read_unread, harg3.read_unread, harg4.read_unread, harg5.read_unread,
    View.ld_unit_zero (S := S2048x256) zero_offsets, View.ld_unit_zero (S := S512x1024) zero_offsets,
    View.ld_unit_zero (S := S1x1024) zero_offsets, readCov_filled (F := F) (S := S2048x1024) _ zero_offsets]
  rfl

/-- What the body leaves in the cell-state output block. -/
theorem cy_left (c : Dev nD) (i : grid0.Coords) (arg1 : Memref sig .tc .vmem S2048x256 .f32) (harg1 : arg1.IsWhole) (arg2 : Memref sig .tc .vmem S2048x256 .f32) (harg2 : arg2.IsWhole) (arg3 : Memref sig .tc .vmem S2048x256 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S2048x256 .f32) (harg6 : arg6.IsWhole) (arg7 : Memref sig .tc .vmem S2048x256 .f32) (harg7 : arg7.IsWhole) (arg8 : Memref sig .tc .vmem S2048x1024 .f32) (harg8 : arg8.IsWhole)
    (x0 : Vec F S2048x256 .f32) (x1 : Vec F S2048x256 .f32) (x2 : Vec F S2048x256 .f32) (x3 : Vec F S512x1024 .bf16) (x4 : Vec F S1x1024 .f32) :
    out0_A_6 c i arg1 harg1 arg2 harg2 arg3 harg3 arg4 harg4 arg5 harg5 arg6 harg6 arg7 harg7 arg8 harg8 x0 x1 x2 x3 x4 = cyBlock x0 x1 x2 x3 x4 := by
  unfold out0_A_6
  rw [View.read_writes_eq_canon _ _ _ (cover0_A_6 c i arg1 harg1 arg2 harg2 arg3 harg3 arg4 harg4 arg5 harg5 arg6 harg6 arg7 harg7 arg8 harg8 x0 x1 x2 x3 x4)]
  unfold kernelRun0_A
  dsimp only
  sl_unfold_words
  rw [View.canon_unit_zero zero_offsets]
  simp only [View.readAt_eq_ld, harg1.read_unread, harg2.read_unread, harg3.read_unread, harg4.read_unread, harg5.read_unread,
    View.ld_unit_zero (S := S2048x256) zero_offsets, View.ld_unit_zero (S := S512x1024) zero_offsets,
    View.ld_unit_zero (S := S1x1024) zero_offsets, readCov_filled (F := F) (S := S2048x1024) _ zero_offsets]
  rfl

end Cert.KernelIdeal.Body

end
-- ==== Proof.SumSplit.lean ====
/-
  Splitting a contraction over 512 terms into its two halves of 256 terms, on the extended reals.
  Addition of extended reals is commutative and associative (with +inf + -inf = -inf), so a finite sum may be
  regrouped freely: no finiteness of the terms is needed.
-/
import Mathlib.Data.EReal.Basic
import Mathlib.Algebra.BigOperators.Fin

namespace Cert.LstmAlgebra

open Finset

/-- A sum over `Fin 512` is the sum over its first 256 indices plus the sum over its last 256 indices. -/
theorem sum_512_split (f : Fin 512 → EReal) :
    ∑ k : Fin 512, f k
      = (∑ k : Fin 256, f ⟨k.val, by omega⟩) + ∑ k : Fin 256, f ⟨256 + k.val, by omega⟩ := by
  exact Fin.sum_univ_add (a := 256) (b := 256) (f : Fin (256 + 256) → EReal)

/-- The fused gate pre-activation `(sx + sh) + (b1 + b2)` is the reference's `((sx + b1) + sh) + b2`. -/
theorem regroup (sx sh b1 b2 : EReal) : (sx + sh) + (b1 + b2) = ((sx + b1) + sh) + b2 := by
  rw [add_add_add_comm sx sh b1 b2, add_assoc (sx + b1) sh b2, add_assoc]

end Cert.LstmAlgebra
-- ==== Proof.CellSpec.lean ====
/-
  One step of the quantized LSTM cell as a function on the extended reals.

  For a batch row `b` and a gate column `j` the pre-activation is
      gate b j = ((Σ_k x[b,k] · Wi[k,j] + bi[j]) + Σ_k h[b,k] · Wh[k,j]) + bh[j],
  where `Wi`, `Wh` are the effective weights (256 × 1024) and `bi`, `bh` the quantized biases. The four gates of
  hidden unit `q` are the columns `q`, `256 + q`, `512 + q`, `768 + q`. With `quant s v = round(clip(v, 0, 1) · s) / s`
  (round to nearest, ties to even):
      i = quant 256 (σ (gate b q)),        f = quant 256 (σ (gate b (256 + q))),
      g = quant 128 (tanh (gate b (512 + q))),   o = quant 256 (σ (gate b (768 + q))),
      cy = quant 128 (f · cx[b,q] + i · g),      hy = quant 128 (o · tanh cy).
  A program that concatenates `x` with `h` and `Wi` with `Wh` and contracts over all 512 terms at once, then adds
  `bi + bh`, computes the same pre-activation: a finite sum of extended reals may be regrouped (`gate_fused`).
-/
import Idealize.ShloMosaic.PureOps.Ideal
import Idealize.ShloMosaic.Lib.ValueIdx
import proofs.«111287_j72035191488637_2_alg».proof.Proof.SumSplit

noncomputable section

namespace Cert.LstmSpec

open Idealize.ShloMosaic Idealize.ShloMosaic.ValueIdx

/-- The float words the cell uses, read as extended reals: 1, 0, 128, 256. -/
abbrev one32 : EReal := Ideal.ofBits .f32 0x3F800000#32
abbrev zero32 : EReal := Ideal.ofBits .f32 0x00000000#32
abbrev w128 : EReal := Ideal.ofBits .f32 0x43000000#32
abbrev w256 : EReal := Ideal.ofBits .f32 0x43800000#32

/-- The word of the float `1.0` denotes the number one. -/
theorem one32_eq : one32 = 1 := by
  simp [one32, Ideal.ofBits, Ideal.ieee, -EReal.coe_mul]; norm_num

/-- Clip to `[0, 1]`, scale by `s`, round to the nearest integer (ties to even), divide by `s`. -/
def quant (s v : EReal) : EReal :=
  Ideal.div (Ideal.liftRound Ideal.roundHalfEven (min one32 (max zero32 v) * s)) s

/-- The logistic function spelled with a negation, an exponential, a sum and a quotient is the logistic function. -/
theorem logistic_expanded (v : EReal) : Ideal.div one32 (one32 + Ideal.exp (-v)) = Ideal.logistic v := by
  rw [one32_eq]; rfl

/-- The new cell state from the input, forget and cell pre-activations `gi`, `gf`, `gg` and the old cell state `c`. -/
def cyOf (gi gf gg c : EReal) : EReal :=
  quant w128 (quant w256 (Ideal.logistic gf) * c + quant w256 (Ideal.logistic gi) * quant w128 (Ideal.tanh gg))

/-- The new hidden state from the four pre-activations and the old cell state. -/
def hyOf (gi gf gg go c : EReal) : EReal :=
  quant w128 (quant w256 (Ideal.logistic go) * Ideal.tanh (cyOf gi gf gg c))

/-- The shapes: batch × hidden, contraction × gate columns, gate columns. -/
abbrev SBH : Shape := ⟨2, ![32768, 256]⟩
abbrev SKJ : Shape := ⟨2, ![256, 1024]⟩
abbrev SJ : Shape := ⟨1, ![1024]⟩

/-- The columns of the four gates of hidden unit `q`. -/
abbrev colI (q : Fin 256) : Fin 1024 := ⟨q.val, by omega⟩
abbrev colF (q : Fin 256) : Fin 1024 := ⟨256 + q.val, by omega⟩
abbrev colG (q : Fin 256) : Fin 1024 := ⟨512 + q.val, by omega⟩
abbrev colO (q : Fin 256) : Fin 1024 := ⟨768 + q.val, by omega⟩

section
variable (x h cx : SBH.Idx → EReal) (wi wh : SKJ.Idx → EReal) (bi bh : SJ.Idx → EReal)

/-- The gate pre-activation at gate column `j` of one batch row, given the row `xr` of the input and the row `hr` of
    the hidden state. -/
def gateRow (xr hr : Fin 256 → EReal) (j : Fin 1024) : EReal :=
  ((∑ k : Fin 256, xr k * wi (ix2 k j) + bi (ix1 j)) + ∑ k : Fin 256, hr k * wh (ix2 k j)) + bh (ix1 j)

/-- The new cell state of hidden unit `q` of one batch row, given that row's old cell state `c` at `q`. -/
def cyRow (xr hr : Fin 256 → EReal) (c : EReal) (q : Fin 256) : EReal :=
  cyOf (gateRow wi wh bi bh xr hr (colI q)) (gateRow wi wh bi bh xr hr (colF q)) (gateRow wi wh bi bh xr hr (colG q)) c

/-- The new hidden state of hidden unit `q` of one batch row. -/
def hyRow (xr hr : Fin 256 → EReal) (c : EReal) (q : Fin 256) : EReal :=
  hyOf (gateRow wi wh bi bh xr hr (colI q)) (gateRow wi wh bi bh xr hr (colF q)) (gateRow wi wh bi bh xr hr (colG q))
    (gateRow wi wh bi bh xr hr (colO q)) c

/-- The gate pre-activation of batch row `b` at gate column `j`. -/
def gate (b : Fin 32768) (j : Fin 1024) : EReal :=
  gateRow wi wh bi bh (fun k => x (ix2 b k)) (fun k => h (ix2 b k)) j

/-- The new cell state of hidden unit `q` in batch row `b`. -/
def cy (b : Fin 32768) (q : Fin 256) : EReal :=
  cyRow wi wh bi bh (fun k => x (ix2 b k)) (fun k => h (ix2 b k)) (cx (ix2 b q)) q

/-- The new hidden state of hidden unit `q` in batch row `b`. -/
def hy (b : Fin 32768) (q : Fin 256) : EReal :=
  hyRow wi wh bi bh (fun k => x (ix2 b k)) (fun k => h (ix2 b k)) (cx (ix2 b q)) q

/-- The two result arrays. -/
def cyArr : SBH.Idx → EReal := fun i => cy x h cx wi wh bi bh (i 0) (i 1)
def hyArr : SBH.Idx → EReal := fun i => hy x h cx wi wh bi bh (i 0) (i 1)

end

/-- A contraction over the 512 concatenated terms plus the summed bias is the two contractions over 256 terms
    with the biases added one after each: the first 256 products are the input's, the last 256 the hidden state's. -/
theorem gate_fused (xs hs wi wh : Fin 256 → EReal) (p : Fin 512 → EReal) (bi bh : EReal)
    (h1 : ∀ k : Fin 256, p ⟨k.val, by omega⟩ = xs k * wi k)
    (h2 : ∀ k : Fin 256, p ⟨256 + k.val, by omega⟩ = hs k * wh k) :
    (∑ k : Fin 512, p k) + (bi + bh) = ((∑ k : Fin 256, xs k * wi k + bi) + ∑ k : Fin 256, hs k * wh k) + bh := by
  rw [Cert.LstmAlgebra.sum_512_split, Cert.LstmAlgebra.regroup]
  rw [Finset.sum_congr rfl (fun k _ => h1 k), Finset.sum_congr rfl (fun k _ => h2 k)]

end Cert.LstmSpec

end
-- ==== Proof.KernelGate.lean ====
/-
  The kernel's blocks at an index, on the extended reals.

  Row `r`, column `j` of the gate block is the contraction over the 512 concatenated columns — the first 256 factors
  are the input block's row against the upper half of the fused weight, the last 256 the hidden-state block's row
  against its lower half — plus the bias row at `j` (`gate_block_apply`). With the fused weight's halves and the bias
  row identified (`hwi`, `hwh`, `hb`) this is the cell's pre-activation (`gate_block`), by the regrouping law. The
  two output blocks are then the cell's scalar update of the four gate columns of hidden unit `q` (`cyBlock_apply`,
  `hyBlock_apply`).
-/
import proofs.«111287_j72035191488637_2_alg».proof.Proof.KernelBody
import proofs.«111287_j72035191488637_2_alg».proof.Proof.CellSpec
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx

namespace Cert.KernelIdeal.Body

open Cert.KernelIdeal Cert.KernelIdeal.Gen Cert.LstmSpec

/-! ## The concatenated left operand -/

/-- A column of the first half of the concatenation is the first piece's column. -/
theorem concat_left (a b : FVec Ideal S2048x256 .bf16) (r : Fin 2048) (k : Fin 256) :
    concatenate S2048x512 1 [⟨S2048x256, a⟩, ⟨S2048x256, b⟩] concatenates_S2048x256_S2048x256_S2048x512_d1
      (ix2 r (⟨k.val, by omega⟩ : Fin 512)) = a (ix2 r k) :=
  concatenate_pair_apply_left (t := S2048x512) (s₁ := S2048x256) (s₂ := S2048x256) (1 : Fin 2) a b _ _ rfl (ix2 r k)
    (fun ax => match ax with | ⟨0, _⟩ => rfl | ⟨1, _⟩ => rfl)

/-- A column of the second half of the concatenation is the second piece's column, 256 less. -/
theorem concat_right (a b : FVec Ideal S2048x256 .bf16) (r : Fin 2048) (k : Fin 256) :
    concatenate S2048x512 1 [⟨S2048x256, a⟩, ⟨S2048x256, b⟩] concatenates_S2048x256_S2048x256_S2048x512_d1
      (ix2 r (⟨256 + k.val, by omega⟩ : Fin 512)) = b (ix2 r k) :=
  concatenate_pair_apply_right (t := S2048x512) (s₁ := S2048x256) (s₂ := S2048x256) (1 : Fin 2) a b _ _ rfl rfl (ix2 r k)
    (fun ax hax => match ax, hax with
      | ⟨0, _⟩, _ => rfl
      | ⟨1, _⟩, h => absurd rfl h)
    (by show k.val + 256 = 256 + k.val; omega)

/-! ## The gate block at an index -/

theorem lhs_row (i : S2048x1024.Idx) (q : dot_S2048x512_S512x1024_S2048x1024_1_0_0_1_n_n.contr.Idx) : (dot_S2048x512_S512x1024_S2048x1024_1_0_0_1_n_n.lhsIdx i q 0).val = (i 0).val := by
  unfold DotDims.lhsIdx
  rw [dif_neg (show ¬(0 : Fin S2048x512.rank) ∈ dot_S2048x512_S512x1024_S2048x1024_1_0_0_1_n_n.lhsBatch by decide), dif_pos (show (0 : Fin S2048x512.rank) ∈ dot_S2048x512_S512x1024_S2048x1024_1_0_0_1_n_n.lhsNonContracting by decide)]
  rfl
theorem lhs_col (i : S2048x1024.Idx) (q : dot_S2048x512_S512x1024_S2048x1024_1_0_0_1_n_n.contr.Idx) : (dot_S2048x512_S512x1024_S2048x1024_1_0_0_1_n_n.lhsIdx i q 1).val = (q ⟨0, by decide⟩).val :=
  dot_S2048x512_S512x1024_S2048x1024_1_0_0_1_n_n.lhsIdx_val_of_single rfl i q
theorem rhs_row (i : S2048x1024.Idx) (q : dot_S2048x512_S512x1024_S2048x1024_1_0_0_1_n_n.contr.Idx) : (dot_S2048x512_S512x1024_S2048x1024_1_0_0_1_n_n.rhsIdx i q 0).val = (q ⟨0, by decide⟩).val :=
  dot_S2048x512_S512x1024_S2048x1024_1_0_0_1_n_n.rhsIdx_val_of_single rfl i q
theorem rhs_col (i : S2048x1024.Idx) (q : dot_S2048x512_S512x1024_S2048x1024_1_0_0_1_n_n.contr.Idx) : (dot_S2048x512_S512x1024_S2048x1024_1_0_0_1_n_n.rhsIdx i q 1).val = (i 1).val := by
  unfold DotDims.rhsIdx
  rw [dif_neg (show ¬(1 : Fin S512x1024.rank) ∈ dot_S2048x512_S512x1024_S2048x1024_1_0_0_1_n_n.rhsBatch by decide), dif_pos (show (1 : Fin S512x1024.rank) ∈ dot_S2048x512_S512x1024_S2048x1024_1_0_0_1_n_n.rhsNonContracting by decide)]
  rfl

/-- The matrix product into a zero accumulator, at row `r` and column `j`, is the sum over the 512 contracted
    columns of the left operand's row against the right operand's column. -/
theorem product_apply (l : FVec Ideal S2048x512 .bf16) (w : FVec Ideal S512x1024 .bf16) (r : Fin 2048) (j : Fin 1024) :
    matmul dot_S2048x512_S512x1024_S2048x1024_1_0_0_1_n_n none l w (constant S2048x1024 .f32 0x00000000#32) (ix2 r j)
      = ∑ k : Fin 512, l (ix2 r k) * w (ix2 k j) := by
  refine (Ideal.matmul_constant_zero_apply dot_S2048x512_S512x1024_S2048x1024_1_0_0_1_n_n none l w (ix2 r j)).trans ?_
  rw [← Equiv.sum_comp (ValueIdx.contrEquiv1 dot_S2048x512_S512x1024_S2048x1024_1_0_0_1_n_n 512 rfl rfl).symm]
  refine Finset.sum_congr rfl fun k _ => ?_
  have hk := ValueIdx.contrEquiv1_symm_val dot_S2048x512_S512x1024_S2048x1024_1_0_0_1_n_n 512 rfl rfl k
  have el : dot_S2048x512_S512x1024_S2048x1024_1_0_0_1_n_n.lhsIdx (ix2 r j) ((ValueIdx.contrEquiv1 dot_S2048x512_S512x1024_S2048x1024_1_0_0_1_n_n 512 rfl rfl).symm k) = ix2 r k := funext fun a => Fin.ext (by
    match a with
    | ⟨0, _⟩ => exact lhs_row _ _
    | ⟨1, _⟩ => exact (lhs_col _ _).trans hk)
  have er : dot_S2048x512_S512x1024_S2048x1024_1_0_0_1_n_n.rhsIdx (ix2 r j) ((ValueIdx.contrEquiv1 dot_S2048x512_S512x1024_S2048x1024_1_0_0_1_n_n 512 rfl rfl).symm k) = ix2 k j := funext fun a => Fin.ext (by
    match a with
    | ⟨0, _⟩ => exact (rhs_row _ _).trans hk
    | ⟨1, _⟩ => exact rhs_col _ _)
  rw [el, er]

/-- Row `r`, column `j` of the gate block: the fused contraction plus the bias row. -/
theorem gate_block_apply (x0 x1 : Vec Ideal S2048x256 .f32) (x3 : Vec Ideal S512x1024 .bf16) (x4 : Vec Ideal S1x1024 .f32)
    (r : Fin 2048) (j : Fin 1024) :
    k0_pay2 (F := Ideal) x0 x1 x3 x4 (ix2 r j)
      = (∑ k : Fin 512, (concatenate S2048x512 1 [⟨S2048x256, (truncf (F := Ideal) .bf16 x0 bitsLt_bf16_f32 : FVec Ideal S2048x256 .bf16)⟩,
              ⟨S2048x256, (truncf (F := Ideal) .bf16 x1 bitsLt_bf16_f32 : FVec Ideal S2048x256 .bf16)⟩]
            concatenates_S2048x256_S2048x256_S2048x512_d1 : FVec Ideal S2048x512 .bf16) (ix2 r k) * x3 (ix2 k j))
        + x4 (ix2 (0 : Fin 1) j) := by
  unfold k0_pay2
  simp only [shapeCast_self]
  show (matmul (F := Ideal) dot_S2048x512_S512x1024_S2048x1024_1_0_0_1_n_n none _ x3 (constant (F := Ideal) S2048x1024 .f32 0x00000000#32) (ix2 r j) : EReal)
      + (broadcastTo S2048x1024 x4 broadcasts_S1x1024_S2048x1024 (ix2 r j) : EReal) = _
  rw [product_apply, broadcastTo_1b_ab_apply]

/-- With the halves of the fused weight and the bias row identified, the gate block holds the cell's
    pre-activations of the point's rows. -/
theorem gate_block (x0 x1 : Vec Ideal S2048x256 .f32) (x3 : Vec Ideal S512x1024 .bf16) (x4 : Vec Ideal S1x1024 .f32)
    (wi wh : SKJ.Idx → EReal) (bi bh : SJ.Idx → EReal)
    (hwi : ∀ (k : Fin 256) (j : Fin 1024), x3 (ix2 (⟨k.val, by omega⟩ : Fin 512) j) = wi (ix2 k j))
    (hwh : ∀ (k : Fin 256) (j : Fin 1024), x3 (ix2 (⟨256 + k.val, by omega⟩ : Fin 512) j) = wh (ix2 k j))
    (hb : ∀ j : Fin 1024, x4 (ix2 (0 : Fin 1) j) = bi (ix1 j) + bh (ix1 j))
    (r : Fin 2048) (j : Fin 1024) :
    k0_pay2 (F := Ideal) x0 x1 x3 x4 (ix2 r j)
      = ((∑ k : Fin 256, x0 (ix2 r k) * wi (ix2 k j) + bi (ix1 j)) + ∑ k : Fin 256, x1 (ix2 r k) * wh (ix2 k j)) + bh (ix1 j) := by
  rw [gate_block_apply, hb]
  exact gate_fused (fun k => x0 (ix2 r k)) (fun k => x1 (ix2 r k)) (fun k => wi (ix2 k j)) (fun k => wh (ix2 k j)) _ _ _
    (fun k => by rw [concat_left, hwi]; rfl) (fun k => by rw [concat_right, hwh]; rfl)

/-! ## The column slices and the pointwise tail -/

theorem sliceI_idx (r : Fin 2048) (q : Fin 256) : sliceI.idx (ix2 r q) = ix2 r (colI q) :=
  funext fun a => Fin.ext (by
    match a with
    | ⟨0, _⟩ => show 0 + 1 * r.val = r.val; omega
    | ⟨1, _⟩ => show 0 + 1 * q.val = q.val; omega)
theorem sliceF_idx (r : Fin 2048) (q : Fin 256) : sliceF.idx (ix2 r q) = ix2 r (colF q) :=
  funext fun a => Fin.ext (by
    match a with
    | ⟨0, _⟩ => show 0 + 1 * r.val = r.val; omega
    | ⟨1, _⟩ => show 256 + 1 * q.val = 256 + q.val; omega)
theorem sliceG_idx (r : Fin 2048) (q : Fin 256) : sliceG.idx (ix2 r q) = ix2 r (colG q) :=
  funext fun a => Fin.ext (by
    match a with
    | ⟨0, _⟩ => show 0 + 1 * r.val = r.val; omega
    | ⟨1, _⟩ => show 512 + 1 * q.val = 512 + q.val; omega)
theorem sliceO_idx (r : Fin 2048) (q : Fin 256) : sliceO.idx (ix2 r q) = ix2 r (colO q) :=
  funext fun a => Fin.ext (by
    match a with
    | ⟨0, _⟩ => show 0 + 1 * r.val = r.val; omega
    | ⟨1, _⟩ => show 768 + 1 * q.val = 768 + q.val; omega)

/-- The input gate at an index: the logistic function of the pre-activation, quantized to 1/256. -/
theorem input_gate_apply (v : Vec Ideal S2048x256 .f32) (y : S2048x256.Idx) :
    k0_pay3 (F := Ideal) v y = quant w256 (Ideal.logistic (v y)) := rfl

/-- The forget gate before its division: the clipped logistic value scaled by 256 and rounded. -/
theorem forget_gate_apply (v : Vec Ideal S2048x256 .f32) (y : S2048x256.Idx) :
    k0_pay4 (F := Ideal) v y = Ideal.liftRound Ideal.roundHalfEven (min one32 (max zero32 (Ideal.logistic (v y))) * w256) := rfl

/-- The new cell state at an index, from the input gate `gi`, the undivided forget gate `gf` and its divisor `d`, the
    cell pre-activation `vg` and the old cell state `vc`. -/
theorem cell_apply (gi gf : FVec Ideal S2048x256 .f32) (d : Ideal .f32) (vg vc : Vec Ideal S2048x256 .f32) (y : S2048x256.Idx) :
    k0_pay5 (F := Ideal) gi gf d vg vc y
      = quant w128 (Ideal.div (gf y) d * vc y + gi y * quant w128 (Ideal.tanh (vg y))) := rfl

/-- The output gate times the hyperbolic tangent of the new cell state, at an index. -/
theorem output_apply (gi gf : FVec Ideal S2048x256 .f32) (d : Ideal .f32) (vg vo vc : Vec Ideal S2048x256 .f32) (y : S2048x256.Idx) :
    k0_pay6 (F := Ideal) gi gf d vg vo vc y
      = quant w256 (Ideal.logistic (vo y)) * Ideal.tanh (k0_pay5 (F := Ideal) gi gf d vg vc y) := rfl

/-- The final quantization of the hidden state, at an index. -/
theorem hidden_apply (v : FVec Ideal S2048x256 .f32) (y : S2048x256.Idx) :
    k0_pay1 (F := Ideal) v (FloatOps.ofBits .f32 0x3F800000#32) (k0_pay7 (F := Ideal)) y = quant w128 (v y) := rfl

section
variable (x0 x1 x2 : Vec Ideal S2048x256 .f32) (x3 : Vec Ideal S512x1024 .bf16) (x4 : Vec Ideal S1x1024 .f32)

/-- The cell-state block at an index is the scalar cell update of the gate block's three slices there. -/
theorem cyBlock_apply (y : S2048x256.Idx) :
    cyBlock (F := Ideal) x0 x1 x2 x3 x4 y
      = cyOf (k0_pay2 (F := Ideal) x0 x1 x3 x4 (sliceI.idx y)) (k0_pay2 (F := Ideal) x0 x1 x3 x4 (sliceF.idx y))
          (k0_pay2 (F := Ideal) x0 x1 x3 x4 (sliceG.idx y)) (x2 y) := by
  unfold cyBlock
  rw [cell_apply, input_gate_apply, forget_gate_apply]
  rfl

/-- The hidden-state block at an index is the scalar hidden update of the gate block's four slices there. -/
theorem hyBlock_apply (y : S2048x256.Idx) :
    hyBlock (F := Ideal) x0 x1 x2 x3 x4 y
      = hyOf (k0_pay2 (F := Ideal) x0 x1 x3 x4 (sliceI.idx y)) (k0_pay2 (F := Ideal) x0 x1 x3 x4 (sliceF.idx y))
          (k0_pay2 (F := Ideal) x0 x1 x3 x4 (sliceG.idx y)) (k0_pay2 (F := Ideal) x0 x1 x3 x4 (sliceO.idx y)) (x2 y) := by
  unfold hyBlock
  rw [hidden_apply, output_apply, cell_apply, input_gate_apply, forget_gate_apply]
  rfl

variable (wi wh : SKJ.Idx → EReal) (bi bh : SJ.Idx → EReal)
  (hwi : ∀ (k : Fin 256) (j : Fin 1024), x3 (ix2 (⟨k.val, by omega⟩ : Fin 512) j) = wi (ix2 k j))
  (hwh : ∀ (k : Fin 256) (j : Fin 1024), x3 (ix2 (⟨256 + k.val, by omega⟩ : Fin 512) j) = wh (ix2 k j))
  (hb : ∀ j : Fin 1024, x4 (ix2 (0 : Fin 1) j) = bi (ix1 j) + bh (ix1 j))
include hwi hwh hb

/-- Row `r`, hidden unit `q` of the cell-state block is the cell's row update of the blocks' rows. -/
theorem cyBlock_row (r : Fin 2048) (q : Fin 256) :
    cyBlock (F := Ideal) x0 x1 x2 x3 x4 (ix2 r q)
      = cyRow wi wh bi bh (fun k => x0 (ix2 r k)) (fun k => x1 (ix2 r k)) (x2 (ix2 r q)) q := by
  rw [cyBlock_apply, sliceI_idx, sliceF_idx, sliceG_idx,
    gate_block x0 x1 x3 x4 wi wh bi bh hwi hwh hb r (colI q), gate_block x0 x1 x3 x4 wi wh bi bh hwi hwh hb r (colF q),
    gate_block x0 x1 x3 x4 wi wh bi bh hwi hwh hb r (colG q)]
  rfl

/-- Row `r`, hidden unit `q` of the hidden-state block is the cell's row update of the blocks' rows. -/
theorem hyBlock_row (r : Fin 2048) (q : Fin 256) :
    hyBlock (F := Ideal) x0 x1 x2 x3 x4 (ix2 r q)
      = hyRow wi wh bi bh (fun k => x0 (ix2 r k)) (fun k => x1 (ix2 r k)) (x2 (ix2 r q)) q := by
  rw [hyBlock_apply, sliceI_idx, sliceF_idx, sliceG_idx, sliceO_idx,
    gate_block x0 x1 x3 x4 wi wh bi bh hwi hwh hb r (colI q), gate_block x0 x1 x3 x4 wi wh bi bh hwi hwh hb r (colF q),
    gate_block x0 x1 x3 x4 wi wh bi bh hwi hwh hb r (colG q), gate_block x0 x1 x3 x4 wi wh bi bh hwi hwh hb r (colO q)]
  rfl

/-! ## A block of the result arrays

The three input blocks are rows `row r` of the arrays `X`, `H`, `CX` (`h0`, `h1`, `h2`), and the output block's index
`(r, q)` lies at `(row r, q)` in the array (`he`): then the output blocks are the result arrays read through the block. -/

variable (X H CX : SBH.Idx → EReal) (row : Fin 2048 → Fin 32768) (e : S2048x256.Idx → SBH.Idx)
  (he : ∀ (r : Fin 2048) (q : Fin 256), e (ix2 r q) = ix2 (row r) q)
  (h0 : ∀ (r : Fin 2048) (k : Fin 256), x0 (ix2 r k) = X (ix2 (row r) k))
  (h1 : ∀ (r : Fin 2048) (k : Fin 256), x1 (ix2 r k) = H (ix2 (row r) k))
  (h2 : ∀ (r : Fin 2048) (q : Fin 256), x2 (ix2 r q) = CX (ix2 (row r) q))
include he h0 h1 h2

theorem cyBlock_is_block (y : S2048x256.Idx) :
    cyBlock (F := Ideal) x0 x1 x2 x3 x4 y = cyArr X H CX wi wh bi bh (e y) := by
  obtain ⟨r, q, rfl⟩ : ∃ (r : Fin 2048) (q : Fin 256), y = ix2 r q := ⟨y 0, y 1, eq_ix2 y⟩
  rw [cyBlock_row x0 x1 x2 x3 x4 wi wh bi bh hwi hwh hb r q, he]
  show _ = cy X H CX wi wh bi bh (row r) q
  unfold cy
  simp only [h0, h1, h2]

theorem hyBlock_is_block (y : S2048x256.Idx) :
    hyBlock (F := Ideal) x0 x1 x2 x3 x4 y = hyArr X H CX wi wh bi bh (e y) := by
  obtain ⟨r, q, rfl⟩ : ∃ (r : Fin 2048) (q : Fin 256), y = ix2 r q := ⟨y 0, y 1, eq_ix2 y⟩
  rw [hyBlock_row x0 x1 x2 x3 x4 wi wh bi bh hwi hwh hb r q, he]
  show _ = hy X H CX wi wh bi bh (row r) q
  unfold hy
  simp only [h0, h1, h2]
end

end Cert.KernelIdeal.Body

end
-- ==== Proof.KernelHost.lean ====
/-
  What the region finds in the two arrays the host computed before it.

  The host quantizes the two transposed weights, adds the scaled noise, stacks the two 256 × 1024 results into the
  512 × 1024 fused weight, and adds the two quantized biases into one row. These are the same operations, in the
  same order, by which the reference computes its effective weights and quantized biases: so the fused weight is the
  reference's two weight stages stacked (`fused_weight`) and the bias row the sum of its two bias stages
  (`bias_row`), read at an index in `fused_upper`, `fused_lower`, `bias_row_apply`.
-/
import proofs.«111287_j72035191488637_2_alg».proof.Proof.Gen.KernelIdeal.Frame
import proofs.«111287_j72035191488637_2_alg».proof.Proof.Gen.ReferenceIdeal.Read
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx

namespace Cert.KernelIdeal.HostSide

open Cert.KernelIdeal Cert.KernelIdeal.Gen

variable (m : (ℓ : Loc nD τ sig) → Buf (Elt Ideal) ℓ)

/-- The reference's effective weights and quantized biases, of the kernel's argument arrays. -/
abbrev wI (c : Dev nD) : S256x1024.Idx → EReal :=
  Cert.ReferenceIdeal.Read.val_main_v17 (F := Ideal) (m ((c : Thread nD τ).loc main_arg3)) (m ((c : Thread nD τ).loc main_arg7))
abbrev wH (c : Dev nD) : S256x1024.Idx → EReal :=
  Cert.ReferenceIdeal.Read.val_main_v35 (F := Ideal) (m ((c : Thread nD τ).loc main_arg4)) (m ((c : Thread nD τ).loc main_arg8))
abbrev bI (c : Dev nD) : S1024.Idx → EReal :=
  Cert.ReferenceIdeal.Read.val_main_v24 (F := Ideal) (m ((c : Thread nD τ).loc main_arg5))
abbrev bH (c : Dev nD) : S1024.Idx → EReal :=
  Cert.ReferenceIdeal.Read.val_main_v43 (F := Ideal) (m ((c : Thread nD τ).loc main_arg6))

set_option maxHeartbeats 40000000 in
/-- The fused weight: the two effective weights stacked along the contraction axis. -/
theorem fused_weight (c : Dev nD) :
    (V m c main_v27 : S512x1024.Idx → EReal)
      = truncf (F := Ideal) .bf16 (concatenate S512x1024 0 [⟨S256x1024, wI m c⟩, ⟨S256x1024, wH m c⟩]
          concatenates_S256x1024_S256x1024_S512x1024_d0) bitsLt_bf16_f32 := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, List.flatten_cons, List.flatten_nil, List.append_nil, List.cons_append, List.nil_append]
  after_results
  rfl

set_option maxHeartbeats 40000000 in
/-- The bias row: the sum of the two quantized biases, as a 1 × 1024 array. -/
theorem bias_row (c : Dev nD) :
    (V m c main_v41 : S1x1024.Idx → EReal)
      = shapeCast S1x1024 (addf (F := Ideal) (φ := .f32) (bI m c) (bH m c) : S1024.Idx → EReal) shapeCasts_S1024_S1x1024 := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, List.flatten_cons, List.flatten_nil, List.append_nil, List.cons_append, List.nil_append]
  after_results
  rfl

end Cert.KernelIdeal.HostSide

end
-- ==== Proof.KernelValue.lean ====
/-
  From the blocks to the two result arrays.

  The grid has 16 points; point `t` works on rows `2048 t … 2048 t + 2047` of the batch: its three input blocks are
  those rows of the input, the hidden state and the cell state, its two output blocks go back to those rows, and the
  fused weight and the bias row are read whole at every point. So what point `t` writes back is the cell's two result
  arrays read through its block (`written_hy`, `written_cy`); every batch row lies in the block of exactly the point
  `row / 2048` (`cover5`, `cover6`); hence after the run the two result arrays hold the cell's results (`run`).
-/
import proofs.«111287_j72035191488637_2_alg».proof.Proof.Gen.KernelIdeal.Value
import proofs.«111287_j72035191488637_2_alg».proof.Proof.KernelGate
import proofs.«111287_j72035191488637_2_alg».proof.Proof.KernelHost

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.LstmSpec Cert.KernelIdeal.Body Cert.KernelIdeal.HostSide

variable (m : (ℓ : Loc nD τ sig) → Buf (Elt Ideal) ℓ) (ρ : Dev nD → PrngReg)

/-- The cell's two result arrays, of the kernel's argument arrays. -/
def hyOut (c : Dev nD) : S32768x256.Idx → EReal :=
  hyArr (m ((c : Thread nD τ).loc main_arg0)) (m ((c : Thread nD τ).loc main_arg1)) (m ((c : Thread nD τ).loc main_arg2)) (wI m c) (wH m c) (bI m c) (bH m c)
def cyOut (c : Dev nD) : S32768x256.Idx → EReal :=
  cyArr (m ((c : Thread nD τ).loc main_arg0)) (m ((c : Thread nD τ).loc main_arg1)) (m ((c : Thread nD τ).loc main_arg2)) (wI m c) (wH m c) (bI m c) (bH m c)

/-! ## Where each window's block lies -/

/-- The printed index maps over the grid: the three batch inputs and the two outputs move with the point along the
    rows; the fused weight and the bias row stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

theorem point_lt (t : Fin cfg0.N) : t.val < 16 := by
  have h : t.val < grid0.N := t.isLt
  have e : grid0.N = 16 := N_0
  omega

/-- The batch row of row `r` of point `t`'s blocks. -/
def rowOf (t : Fin cfg0.N) (r : Fin 2048) : Fin 32768 :=
  ⟨t.val * 2048 + r.val, by have := point_lt t; have := r.isLt; omega⟩

theorem emb0 (t : Fin cfg0.N) (r : Fin 2048) (q : Fin 256) :
    ((cfg0.win 0).blk t).view.emb (ix2 r q) = ix2 (rowOf t r) q := by
  obtain ⟨a0, b0, a1, b1, a2, b2, a5, b5, a6, b6, a3, b3, a4, b4⟩ := idx_facts t
  funext a; apply Fin.ext
  match a with
  | ⟨0, _⟩ => show win0_0.index t (0 : Fin 2) * 2048 + 1 * r.val = t.val * 2048 + r.val; omega
  | ⟨1, _⟩ => show win0_0.index t (1 : Fin 2) * 256 + 1 * q.val = q.val; omega

theorem emb1 (t : Fin cfg0.N) (r : Fin 2048) (q : Fin 256) :
    ((cfg0.win 1).blk t).view.emb (ix2 r q) = ix2 (rowOf t r) q := by
  obtain ⟨a0, b0, a1, b1, a2, b2, a5, b5, a6, b6, a3, b3, a4, b4⟩ := idx_facts t
  funext a; apply Fin.ext
  match a with
  | ⟨0, _⟩ => show win0_1.index t (0 : Fin 2) * 2048 + 1 * r.val = t.val * 2048 + r.val; omega
  | ⟨1, _⟩ => show win0_1.index t (1 : Fin 2) * 256 + 1 * q.val = q.val; omega

theorem emb2 (t : Fin cfg0.N) (r : Fin 2048) (q : Fin 256) :
    ((cfg0.win 2).blk t).view.emb (ix2 r q) = ix2 (rowOf t r) q := by
  obtain ⟨a0, b0, a1, b1, a2, b2, a5, b5, a6, b6, a3, b3, a4, b4⟩ := idx_facts t
  funext a; apply Fin.ext
  match a with
  | ⟨0, _⟩ => show win0_2.index t (0 : Fin 2) * 2048 + 1 * r.val = t.val * 2048 + r.val; omega
  | ⟨1, _⟩ => show win0_2.index t (1 : Fin 2) * 256 + 1 * q.val = q.val; omega

theorem emb5 (t : Fin cfg0.N) (r : Fin 2048) (q : Fin 256) :
    ((cfg0.win 5).blk t).view.emb (ix2 r q) = ix2 (rowOf t r) q := by
  obtain ⟨a0, b0, a1, b1, a2, b2, a5, b5, a6, b6, a3, b3, a4, b4⟩ := idx_facts t
  funext a; apply Fin.ext
  match a with
  | ⟨0, _⟩ => show win0_5.index t (0 : Fin 2) * 2048 + 1 * r.val = t.val * 2048 + r.val; omega
  | ⟨1, _⟩ => show win0_5.index t (1 : Fin 2) * 256 + 1 * q.val = q.val; omega

theorem emb6 (t : Fin cfg0.N) (r : Fin 2048) (q : Fin 256) :
    ((cfg0.win 6).blk t).view.emb (ix2 r q) = ix2 (rowOf t r) q := by
  obtain ⟨a0, b0, a1, b1, a2, b2, a5, b5, a6, b6, a3, b3, a4, b4⟩ := idx_facts t
  funext a; apply Fin.ext
  match a with
  | ⟨0, _⟩ => show win0_6.index t (0 : Fin 2) * 2048 + 1 * r.val = t.val * 2048 + r.val; omega
  | ⟨1, _⟩ => show win0_6.index t (1 : Fin 2) * 256 + 1 * q.val = q.val; omega

theorem emb3 (t : Fin cfg0.N) (k : Fin 512) (j : Fin 1024) :
    ((cfg0.win 3).blk t).view.emb (ix2 k j) = ix2 k j := by
  obtain ⟨a0, b0, a1, b1, a2, b2, a5, b5, a6, b6, a3, b3, a4, b4⟩ := idx_facts t
  funext a; apply Fin.ext
  match a with
  | ⟨0, _⟩ => show win0_3.index t (0 : Fin 2) * 512 + 1 * k.val = k.val; omega
  | ⟨1, _⟩ => show win0_3.index t (1 : Fin 2) * 1024 + 1 * j.val = j.val; omega

theorem emb4 (t : Fin cfg0.N) (u : Fin 1) (j : Fin 1024) :
    ((cfg0.win 4).blk t).view.emb (ix2 u j) = ix2 u j := by
  obtain ⟨a0, b0, a1, b1, a2, b2, a5, b5, a6, b6, a3, b3, a4, b4⟩ := idx_facts t
  funext a; apply Fin.ext
  match a with
  | ⟨0, _⟩ => show win0_4.index t (0 : Fin 2) * 1 + 1 * u.val = u.val; omega
  | ⟨1, _⟩ => show win0_4.index t (1 : Fin 2) * 1024 + 1 * j.val = j.val; omega

/-! ## The input blocks at a point -/

theorem blk0 (c : Dev nD) (t : Fin cfg0.N) (r : Fin 2048) (k : Fin 256) :
    iblk m c 0 t (ix2 r k) = (m ((c : Thread nD τ).loc main_arg0)) (ix2 (rowOf t r) k) := by
  show V m c main_arg0 (((cfg0.win 0).blk t).view.emb (ix2 r k)) = _
  rw [emb0, V_main_arg0]

theorem blk1 (c : Dev nD) (t : Fin cfg0.N) (r : Fin 2048) (k : Fin 256) :
    iblk m c 1 t (ix2 r k) = (m ((c : Thread nD τ).loc main_arg1)) (ix2 (rowOf t r) k) := by
  show V m c main_arg1 (((cfg0.win 1).blk t).view.emb (ix2 r k)) = _
  rw [emb1, V_main_arg1]

theorem blk2 (c : Dev nD) (t : Fin cfg0.N) (r : Fin 2048) (k : Fin 256) :
    iblk m c 2 t (ix2 r k) = (m ((c : Thread nD τ).loc main_arg2)) (ix2 (rowOf t r) k) := by
  show V m c main_arg2 (((cfg0.win 2).blk t).view.emb (ix2 r k)) = _
  rw [emb2, V_main_arg2]

/-- The upper half of the fused weight is the effective input weight. -/
theorem fused_upper (c : Dev nD) (t : Fin cfg0.N) (k : Fin 256) (j : Fin 1024) :
    iblk m c 3 t (ix2 (⟨k.val, by omega⟩ : Fin 512) j) = wI m c (ix2 k j) := by
  show V m c main_v27 (((cfg0.win 3).blk t).view.emb (ix2 (⟨k.val, by omega⟩ : Fin 512) j)) = _
  rw [emb3, fused_weight]
  exact concatenate_pair_apply_left (t := S512x1024) (s₁ := S256x1024) (s₂ := S256x1024) (0 : Fin 2) (wI m c) (wH m c)
    concatenates_S256x1024_S256x1024_S512x1024_d0 (ix2 (⟨k.val, by omega⟩ : Fin 512) j) rfl (ix2 k j)
    (fun ax => match ax with | ⟨0, _⟩ => rfl | ⟨1, _⟩ => rfl)

/-- The lower half of the fused weight is the effective hidden weight. -/
theorem fused_lower (c : Dev nD) (t : Fin cfg0.N) (k : Fin 256) (j : Fin 1024) :
    iblk m c 3 t (ix2 (⟨256 + k.val, by omega⟩ : Fin 512) j) = wH m c (ix2 k j) := by
  show V m c main_v27 (((cfg0.win 3).blk t).view.emb (ix2 (⟨256 + k.val, by omega⟩ : Fin 512) j)) = _
  rw [emb3, fused_weight]
  exact concatenate_pair_apply_right (t := S512x1024) (s₁ := S256x1024) (s₂ := S256x1024) (0 : Fin 2) (wI m c) (wH m c)
    concatenates_S256x1024_S256x1024_S512x1024_d0 (ix2 (⟨256 + k.val, by omega⟩ : Fin 512) j) rfl rfl (ix2 k j)
    (fun ax hax => match ax, hax with
      | ⟨0, _⟩, h => absurd rfl h
      | ⟨1, _⟩, _ => rfl)
    (by show k.val + 256 = 256 + k.val; omega)

/-- The bias row is the sum of the two quantized biases. -/
theorem bias_at (c : Dev nD) (t : Fin cfg0.N) (j : Fin 1024) :
    iblk m c 4 t (ix2 (0 : Fin 1) j) = bI m c (ix1 j) + bH m c (ix1 j) := by
  show V m c main_v41 (((cfg0.win 4).blk t).view.emb (ix2 (0 : Fin 1) j)) = _
  rw [emb4, bias_row, shapeCast_a_1a_apply]
  rfl

/-! ## What a point writes back -/

/-- Point `t` writes back the block of the new hidden state. -/
theorem written_hy (c : Dev nD) (t : Fin cfg0.N) :
    (dats m 0 c).flushed 5 t = ((cfg0.win 5).blk t).view.read (Elt Ideal) (hyOut m c) := by
  rw [Cert.KernelIdeal.Value.flushed5_A, hy_left]
  funext y
  show hyBlock (F := Ideal) (iblk m c 0 t) (iblk m c 1 t) (iblk m c 2 t) (iblk m c 3 t) (iblk m c 4 t) y = hyOut m c (((cfg0.win 5).blk t).view.emb y)
  exact hyBlock_is_block (iblk m c 0 t) (iblk m c 1 t) (iblk m c 2 t) (iblk m c 3 t) (iblk m c 4 t) (wI m c) (wH m c) (bI m c) (bH m c)
    (fused_upper m c t) (fused_lower m c t) (bias_at m c t)
    (m ((c : Thread nD τ).loc main_arg0)) (m ((c : Thread nD τ).loc main_arg1)) (m ((c : Thread nD τ).loc main_arg2))
    (rowOf t) (((cfg0.win 5).blk t).view.emb) (emb5 t) (blk0 m c t) (blk1 m c t) (blk2 m c t) y

/-- Point `t` writes back the block of the new cell state. -/
theorem written_cy (c : Dev nD) (t : Fin cfg0.N) :
    (dats m 0 c).flushed 6 t = ((cfg0.win 6).blk t).view.read (Elt Ideal) (cyOut m c) := by
  rw [Cert.KernelIdeal.Value.flushed6_A, cy_left]
  funext y
  show cyBlock (F := Ideal) (iblk m c 0 t) (iblk m c 1 t) (iblk m c 2 t) (iblk m c 3 t) (iblk m c 4 t) y = cyOut m c (((cfg0.win 6).blk t).view.emb y)
  exact cyBlock_is_block (iblk m c 0 t) (iblk m c 1 t) (iblk m c 2 t) (iblk m c 3 t) (iblk m c 4 t) (wI m c) (wH m c) (bI m c) (bH m c)
    (fused_upper m c t) (fused_lower m c t) (bias_at m c t)
    (m ((c : Thread nD τ).loc main_arg0)) (m ((c : Thread nD τ).loc main_arg1)) (m ((c : Thread nD τ).loc main_arg2))
    (rowOf t) (((cfg0.win 6).blk t).view.emb) (emb6 t) (blk0 m c t) (blk1 m c t) (blk2 m c t) y

/-! ## The blocks tile the arrays -/

theorem mem_blk5 (t : Fin cfg0.N) (i : S32768x256.Idx) :
    i ∈ ((cfg0.win 5).blk t).view.set ↔ ∀ a : Fin 2, win0_5.index t a * S2048x256.size a ≤ (i a).val ∧ (i a).val < win0_5.index t a * S2048x256.size a + S2048x256.size a := by
  show i ∈ ((View.whole main_v42_0).slice (win0_5.rect t)).set ↔ _
  rw [View.set_slice_whole, Rect.mem_set_unit]
  exact Iff.rfl

/-- Row `i 0` of the array lies in the block of point `(i 0) / 2048`. -/
theorem cover5 (i : S32768x256.Idx) :
    ∃ t : Fin cfg0.N, (cfg0.win 5).flush t = true ∧ i ∈ ((cfg0.win 5).blk t).view.set := by
  have h0 : (i 0).val < 32768 := (i 0).isLt
  have h1 : (i 1).val < 256 := (i 1).isLt
  have hN : grid0.N = 16 := N_0
  refine ⟨⟨(i 0).val / 2048, by show _ < grid0.N; omega⟩, flush0_5 _, ?_⟩
  obtain ⟨a0, b0, a1, b1, a2, b2, a5, b5, a6, b6, a3, b3, a4, b4⟩ := idx_facts ⟨(i 0).val / 2048, by show _ < grid0.N; omega⟩
  rw [mem_blk5]
  intro a
  match a with
  | ⟨0, _⟩ =>
    show win0_5.index _ (0 : Fin 2) * 2048 ≤ (i 0).val ∧ (i 0).val < win0_5.index _ (0 : Fin 2) * 2048 + 2048
    rw [a5]; show (i 0).val / 2048 * 2048 ≤ (i 0).val ∧ (i 0).val < (i 0).val / 2048 * 2048 + 2048; omega
  | ⟨1, _⟩ =>
    show win0_5.index _ (1 : Fin 2) * 256 ≤ (i 1).val ∧ (i 1).val < win0_5.index _ (1 : Fin 2) * 256 + 256
    rw [b5]; omega

theorem mem_blk6 (t : Fin cfg0.N) (i : S32768x256.Idx) :
    i ∈ ((cfg0.win 6).blk t).view.set ↔ ∀ a : Fin 2, win0_6.index t a * S2048x256.size a ≤ (i a).val ∧ (i a).val < win0_6.index t a * S2048x256.size a + S2048x256.size a := by
  show i ∈ ((View.whole main_v42_1).slice (win0_6.rect t)).set ↔ _
  rw [View.set_slice_whole, Rect.mem_set_unit]
  exact Iff.rfl

/-- Row `i 0` of the array lies in the block of point `(i 0) / 2048`. -/
theorem cover6 (i : S32768x256.Idx) :
    ∃ t : Fin cfg0.N, (cfg0.win 6).flush t = true ∧ i ∈ ((cfg0.win 6).blk t).view.set := by
  have h0 : (i 0).val < 32768 := (i 0).isLt
  have h1 : (i 1).val < 256 := (i 1).isLt
  have hN : grid0.N = 16 := N_0
  refine ⟨⟨(i 0).val / 2048, by show _ < grid0.N; omega⟩, flush0_6 _, ?_⟩
  obtain ⟨a0, b0, a1, b1, a2, b2, a5, b5, a6, b6, a3, b3, a4, b4⟩ := idx_facts ⟨(i 0).val / 2048, by show _ < grid0.N; omega⟩
  rw [mem_blk6]
  intro a
  match a with
  | ⟨0, _⟩ =>
    show win0_6.index _ (0 : Fin 2) * 2048 ≤ (i 0).val ∧ (i 0).val < win0_6.index _ (0 : Fin 2) * 2048 + 2048
    rw [a6]; show (i 0).val / 2048 * 2048 ≤ (i 0).val ∧ (i 0).val < (i 0).val / 2048 * 2048 + 2048; omega
  | ⟨1, _⟩ =>
    show win0_6.index _ (1 : Fin 2) * 256 ≤ (i 1).val ∧ (i 1).val < win0_6.index _ (1 : Fin 2) * 256 + 256
    rw [b6]; omega

/-- After the run the first result array holds the new hidden state, -/
theorem final_hy (c : Dev nD) : (dats m 0 c).arrAt 5 cfg0.N = hyOut m c :=
  (dats m 0 c).arrAt_eq_of_cover 5 (hyOut m c) (fun t _ => written_hy m c t) cover5

/-- and the second the new cell state. -/
theorem final_cy (c : Dev nD) : (dats m 0 c).arrAt 6 cfg0.N = cyOut m c :=
  (dats m 0 c).arrAt_eq_of_cover 6 (cyOut m c) (fun t _ => written_cy m c t) cover6

/-- Every weakly fair execution of the kernel program ends with the two result arrays at the cell's results of the
    argument arrays, and the argument arrays unchanged. -/
theorem run : θ_run defs (onTc (τ := τ) (main (F := Ideal))) ⟨m, fun _ => 0, ρ⟩ fun r => ∀ c : Dev nD,
      r.2.mem ((c : Thread nD τ).loc main_v42_0) = hyOut m c
      ∧ r.2.mem ((c : Thread nD τ).loc main_v42_1) = cyOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final_hy m c), (h c).2.1.trans (final_cy m c), (h c).2.2⟩)
    (Cert.KernelIdeal.Value.run_blocks m ρ)

end Cert.KernelIdeal.Whole

end
-- ==== Proof.RefValue.lean ====
/-
  The reference program's two results, index by index.

  Its gate pre-activation (`%46`) is the input's product with the effective input weight plus the first quantized
  bias, plus the hidden state's product with the effective hidden weight, plus the second quantized bias: the cell's
  pre-activation over those four arrays (`gate_eq`). The four arrays — the stages `%17`, `%35`, `%24`, `%43` of the
  program — are kept as they are: nothing below depends on how they were computed. The two results are then
  the cell's scalar update of the four column slices (`cy_eq`, `hy_eq`); the program spells the logistic function with
  a negation, an exponential, a sum and a quotient, which is the logistic function.
-/
import proofs.«111287_j72035191488637_2_alg».proof.Proof.Gen.ReferenceIdeal.Read
import proofs.«111287_j72035191488637_2_alg».proof.Proof.CellSpec

set_option maxRecDepth 16384

noncomputable section

open Idealize.ShloMosaic Idealize.ShloMosaic.TcCoe Idealize.SL.Sem Idealize.ShloMosaic.ValueIdx

namespace Cert.ReferenceIdeal.RefValue

open Cert.ReferenceIdeal Cert.ReferenceIdeal.Read Cert.LstmSpec

/-- The quantization, recognized in a term. -/
theorem quant_fold (s v : EReal) :
    Ideal.div (Ideal.liftRound Ideal.roundHalfEven (min one32 (max zero32 v) * s)) s = quant s v := rfl

section
variable (x0 x1 x2 : (⟨S32768x256, .f32⟩ : BufTy).Contents (Elt Ideal)) (x3 x4 : (⟨S1024x256, .f32⟩ : BufTy).Contents (Elt Ideal))
  (x5 x6 : (⟨S1024, .f32⟩ : BufTy).Contents (Elt Ideal)) (x7 x8 : (⟨S256x1024, .f32⟩ : BufTy).Contents (Elt Ideal))

/-- The effective weights and the quantized biases, as the program's stages. -/
abbrev wI : SKJ.Idx → EReal := val_main_v17 (F := Ideal) x3 x7
abbrev wH : SKJ.Idx → EReal := val_main_v35 (F := Ideal) x4 x8
abbrev bI : SJ.Idx → EReal := val_main_v24 (F := Ideal) x5
abbrev bH : SJ.Idx → EReal := val_main_v43 (F := Ideal) x6

/-- The program's gate stage is the cell's pre-activation. -/
theorem gate_eq (b : Fin 32768) (j : Fin 1024) :
    val_main_v46 (F := Ideal) x0 x1 x3 x4 x5 x6 x7 x8 (ix2 b j) = gate x0 x1 (wI x3 x7) (wH x4 x8) (bI x5) (bH x6) b j := by
  have e1 : ∀ k, lidx_main_v18 (ix2 b j) k = ix2 b k := fun k => funext fun a => Fin.ext (by
    match a with | ⟨0, _⟩ => rfl | ⟨1, _⟩ => rfl)
  have e2 : ∀ k, ridx_main_v18 (ix2 b j) k = ix2 k j := fun k => funext fun a => Fin.ext (by
    match a with | ⟨0, _⟩ => rfl | ⟨1, _⟩ => rfl)
  have e3 : ∀ k, lidx_main_v36 (ix2 b j) k = ix2 b k := fun k => funext fun a => Fin.ext (by
    match a with | ⟨0, _⟩ => rfl | ⟨1, _⟩ => rfl)
  have e4 : ∀ k, ridx_main_v36 (ix2 b j) k = ix2 k j := fun k => funext fun a => Fin.ext (by
    match a with | ⟨0, _⟩ => rfl | ⟨1, _⟩ => rfl)
  have e5 : idx_main_v25 (idx_main_v26 (ix2 b j)) = ix1 j := funext fun a => Fin.ext (by
    match a with | ⟨0, _⟩ => rfl)
  have e6 : idx_main_v44 (idx_main_v45 (ix2 b j)) = ix1 j := funext fun a => Fin.ext (by
    match a with | ⟨0, _⟩ => rfl)
  rw [val_main_v46_apply, val_main_v37_apply, val_main_v27_apply, val_main_v18_apply, val_main_v36_apply,
    val_main_v26_apply, val_main_v25_apply, val_main_v45_apply, val_main_v44_apply]
  simp only [e1, e2, e3, e4, e5, e6]
  rfl

theorem sliceI_idx (b : Fin 32768) (q : Fin 256) : idx_main_v47 (ix2 b q) = ix2 b (colI q) :=
  funext fun a => Fin.ext (by match a with | ⟨0, _⟩ => rfl | ⟨1, _⟩ => rfl)
theorem sliceF_idx (b : Fin 32768) (q : Fin 256) : idx_main_v48 (ix2 b q) = ix2 b (colF q) :=
  funext fun a => Fin.ext (by match a with | ⟨0, _⟩ => rfl | ⟨1, _⟩ => rfl)
theorem sliceG_idx (b : Fin 32768) (q : Fin 256) : idx_main_v49 (ix2 b q) = ix2 b (colG q) :=
  funext fun a => Fin.ext (by match a with | ⟨0, _⟩ => rfl | ⟨1, _⟩ => rfl)
theorem sliceO_idx (b : Fin 32768) (q : Fin 256) : idx_main_v50 (ix2 b q) = ix2 b (colO q) :=
  funext fun a => Fin.ext (by match a with | ⟨0, _⟩ => rfl | ⟨1, _⟩ => rfl)

/-- The program's new cell state is the cell's. -/
theorem cy_eq (b : Fin 32768) (q : Fin 256) :
    val_main_v102 (F := Ideal) x0 x1 x2 x3 x4 x5 x6 x7 x8 (ix2 b q)
      = cy x0 x1 x2 (wI x3 x7) (wH x4 x8) (bI x5) (bH x6) b q := by
  simp only [
    val_main_v47_apply, val_main_v48_apply, val_main_v49_apply, val_main_v51_apply, val_main_v52_apply,
    val_main_cst_19_apply, val_main_v53_apply, val_main_v54_apply, val_main_cst_20_apply, val_main_v55_apply,
    val_main_v56_apply, val_main_cst_21_apply, val_main_cst_22_apply, val_main_call8_v0_apply, val_main_call8_v1_apply,
    val_main_call8_v2_apply, val_main_call8_v3_apply, val_main_call8_v4_apply, val_main_v57_apply,
    val_main_cst_23_apply, val_main_v58_apply, val_main_v59_apply, val_main_v60_apply, val_main_cst_24_apply,
    val_main_v61_apply, val_main_v62_apply, val_main_v63_apply, val_main_v64_apply, val_main_cst_25_apply,
    val_main_v65_apply, val_main_v66_apply, val_main_cst_26_apply, val_main_v67_apply, val_main_v68_apply,
    val_main_cst_27_apply, val_main_cst_28_apply, val_main_call10_v0_apply, val_main_call10_v1_apply,
    val_main_call10_v2_apply, val_main_call10_v3_apply, val_main_call10_v4_apply, val_main_v69_apply,
    val_main_cst_29_apply, val_main_v70_apply, val_main_v71_apply, val_main_v72_apply, val_main_cst_30_apply,
    val_main_v73_apply, val_main_v74_apply, val_main_v75_apply, val_main_cst_31_apply, val_main_cst_32_apply,
    val_main_call12_v0_apply, val_main_call12_v1_apply, val_main_call12_v2_apply, val_main_call12_v3_apply,
    val_main_call12_v4_apply, val_main_v76_apply, val_main_cst_33_apply, val_main_v77_apply, val_main_v78_apply,
    val_main_v79_apply, val_main_cst_34_apply, val_main_v80_apply, val_main_v81_apply, val_main_v94_apply,
    val_main_v95_apply, val_main_v96_apply, val_main_cst_41_apply, val_main_cst_42_apply, val_main_call16_v0_apply,
    val_main_call16_v1_apply, val_main_call16_v2_apply, val_main_call16_v3_apply, val_main_call16_v4_apply,
    val_main_v97_apply, val_main_cst_43_apply, val_main_v98_apply, val_main_v99_apply, val_main_v100_apply,
    val_main_cst_44_apply, val_main_v101_apply, val_main_v102_apply]
  rw [sliceI_idx, sliceF_idx, sliceG_idx, gate_eq x0 x1 x3 x4 x5 x6 x7 x8 b (colI q), gate_eq x0 x1 x3 x4 x5 x6 x7 x8 b (colF q),
    gate_eq x0 x1 x3 x4 x5 x6 x7 x8 b (colG q)]
  simp only [Ideal.hostDivf_def, Ideal.hostUnary_roundeven_def, Ideal.hostUnary_exp_def, Ideal.hostUnary_tanh_def,
    Ideal.hostNegf_def, Ideal.negf_def, Ideal.addf_def, Ideal.mulf_def, Ideal.minimumf_def, Ideal.maximumf_def, Ideal.ofBits_def,
    logistic_expanded, quant_fold]
  rfl

/-- The program's new hidden state is the cell's. -/
theorem hy_eq (b : Fin 32768) (q : Fin 256) :
    val_main_v110 (F := Ideal) x0 x1 x2 x3 x4 x5 x6 x7 x8 (ix2 b q)
      = hy x0 x1 x2 (wI x3 x7) (wH x4 x8) (bI x5) (bH x6) b q := by
  simp only [
    val_main_v50_apply, val_main_v82_apply, val_main_v83_apply, val_main_cst_35_apply, val_main_v84_apply,
    val_main_v85_apply, val_main_cst_36_apply, val_main_v86_apply, val_main_v87_apply, val_main_cst_37_apply,
    val_main_cst_38_apply, val_main_call14_v0_apply, val_main_call14_v1_apply, val_main_call14_v2_apply,
    val_main_call14_v3_apply, val_main_call14_v4_apply, val_main_v88_apply, val_main_cst_39_apply, val_main_v89_apply,
    val_main_v90_apply, val_main_v91_apply, val_main_cst_40_apply, val_main_v92_apply, val_main_v93_apply,
    val_main_v103_apply, val_main_v104_apply, val_main_cst_45_apply, val_main_cst_46_apply, val_main_call18_v0_apply,
    val_main_call18_v1_apply, val_main_call18_v2_apply, val_main_call18_v3_apply, val_main_call18_v4_apply,
    val_main_v105_apply, val_main_cst_47_apply, val_main_v106_apply, val_main_v107_apply, val_main_v108_apply,
    val_main_cst_48_apply, val_main_v109_apply, val_main_v110_apply]
  rw [sliceO_idx, gate_eq x0 x1 x3 x4 x5 x6 x7 x8 b (colO q), cy_eq x0 x1 x2 x3 x4 x5 x6 x7 x8 b q]
  simp only [Ideal.hostDivf_def, Ideal.hostUnary_roundeven_def, Ideal.hostUnary_exp_def, Ideal.hostUnary_tanh_def,
    Ideal.hostNegf_def, Ideal.negf_def, Ideal.addf_def, Ideal.mulf_def, Ideal.minimumf_def, Ideal.maximumf_def, Ideal.ofBits_def,
    logistic_expanded, quant_fold]
  rfl

end

end Cert.ReferenceIdeal.RefValue

end
-- ==== Proof.lean ====
/-
  Kernel against reference for one step of a quantized LSTM cell, on the extended reals.

  The kernel stacks the input and the hidden state side by side and the two effective weights one above the other, and
  contracts over all 512 terms at once, adding the sum of the two quantized biases; the reference contracts the two
  halves separately and adds the biases one after each. A finite sum of extended reals may be regrouped, so the gate
  pre-activations agree; from there on both programs apply the same scalar update to the four gate columns of each
  hidden unit (the kernel's one logistic operation is the reference's quotient 1 / (1 + exp(-v))), so the new hidden
  state and the new cell state agree index by index. The effective weights and the quantized biases are computed by the
  same host operations in both programs and are never opened. The precondition is not used by the law.
  The three frames are the generated ones (the reference's is its run with the results dropped), and the
  idealization rewrote nothing, so there is nothing to preserve.
-/
import proofs.«111287_j72035191488637_2_alg».proof.Defs
import proofs.«111287_j72035191488637_2_alg».proof.Proof.Gen.Kernel
import proofs.«111287_j72035191488637_2_alg».proof.Proof.Gen.Kernel.Frame
import proofs.«111287_j72035191488637_2_alg».proof.Proof.Gen.KernelIdeal
import proofs.«111287_j72035191488637_2_alg».proof.Proof.Gen.KernelIdeal.Frame
import proofs.«111287_j72035191488637_2_alg».proof.Proof.Gen.KernelIdeal.Value
import proofs.«111287_j72035191488637_2_alg».proof.Proof.Gen.ReferenceIdeal
import proofs.«111287_j72035191488637_2_alg».proof.Proof.Gen.ReferenceIdeal.Run
import proofs.«111287_j72035191488637_2_alg».proof.Proof.Gen.ReferenceIdeal.Read
import proofs.«111287_j72035191488637_2_alg».proof.Proof.Gen.Pre_finite_inputs
import proofs.«111287_j72035191488637_2_alg».proof.Proof.KernelValue
import proofs.«111287_j72035191488637_2_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

theorem frame_kernel : Cert.frame_Kernel :=
  fun m ρ _ => Cert.Kernel.Gen.frame m ρ

theorem frame_kernel_ideal : Cert.frame_KernelIdeal :=
  fun m ρ _ => Cert.KernelIdeal.Gen.frame m ρ

theorem frame_reference : Cert.frame_ReferenceIdeal :=
  fun m ρ _ => (θ_run Cert.ReferenceIdeal.defs _ _).mono (fun _ h c => (h c).2.2)
    (Cert.ReferenceIdeal.Value.run (F := Ideal) m ρ)

/-- The reference's first result, at the reference's argument arrays, is the cell's new hidden state. -/
theorem reference_hy (m' : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v110 m' c
      = Cert.LstmSpec.hyArr (m' ((c.tc : Thread _ Cert.ReferenceIdeal.τ).loc Cert.ReferenceIdeal.main_arg0))
          (m' ((c.tc : Thread _ Cert.ReferenceIdeal.τ).loc Cert.ReferenceIdeal.main_arg1))
          (m' ((c.tc : Thread _ Cert.ReferenceIdeal.τ).loc Cert.ReferenceIdeal.main_arg2))
          (Cert.ReferenceIdeal.RefValue.wI (m' ((c.tc : Thread _ Cert.ReferenceIdeal.τ).loc Cert.ReferenceIdeal.main_arg3)) (m' ((c.tc : Thread _ Cert.ReferenceIdeal.τ).loc Cert.ReferenceIdeal.main_arg7)))
          (Cert.ReferenceIdeal.RefValue.wH (m' ((c.tc : Thread _ Cert.ReferenceIdeal.τ).loc Cert.ReferenceIdeal.main_arg4)) (m' ((c.tc : Thread _ Cert.ReferenceIdeal.τ).loc Cert.ReferenceIdeal.main_arg8)))
          (Cert.ReferenceIdeal.RefValue.bI (m' ((c.tc : Thread _ Cert.ReferenceIdeal.τ).loc Cert.ReferenceIdeal.main_arg5)))
          (Cert.ReferenceIdeal.RefValue.bH (m' ((c.tc : Thread _ Cert.ReferenceIdeal.τ).loc Cert.ReferenceIdeal.main_arg6))) := by
  rw [Cert.ReferenceIdeal.Read.val_main_v110_eq]
  funext i
  obtain ⟨b, q, rfl⟩ : ∃ (b : Fin 32768) (q : Fin 256), i = ix2 b q := ⟨i 0, i 1, eq_ix2 i⟩
  exact Cert.ReferenceIdeal.RefValue.hy_eq _ _ _ _ _ _ _ _ _ b q

/-- The reference's second result is the cell's new cell state. -/
theorem reference_cy (m' : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v102 m' c
      = Cert.LstmSpec.cyArr (m' ((c.tc : Thread _ Cert.ReferenceIdeal.τ).loc Cert.ReferenceIdeal.main_arg0))
          (m' ((c.tc : Thread _ Cert.ReferenceIdeal.τ).loc Cert.ReferenceIdeal.main_arg1))
          (m' ((c.tc : Thread _ Cert.ReferenceIdeal.τ).loc Cert.ReferenceIdeal.main_arg2))
          (Cert.ReferenceIdeal.RefValue.wI (m' ((c.tc : Thread _ Cert.ReferenceIdeal.τ).loc Cert.ReferenceIdeal.main_arg3)) (m' ((c.tc : Thread _ Cert.ReferenceIdeal.τ).loc Cert.ReferenceIdeal.main_arg7)))
          (Cert.ReferenceIdeal.RefValue.wH (m' ((c.tc : Thread _ Cert.ReferenceIdeal.τ).loc Cert.ReferenceIdeal.main_arg4)) (m' ((c.tc : Thread _ Cert.ReferenceIdeal.τ).loc Cert.ReferenceIdeal.main_arg8)))
          (Cert.ReferenceIdeal.RefValue.bI (m' ((c.tc : Thread _ Cert.ReferenceIdeal.τ).loc Cert.ReferenceIdeal.main_arg5)))
          (Cert.ReferenceIdeal.RefValue.bH (m' ((c.tc : Thread _ Cert.ReferenceIdeal.τ).loc Cert.ReferenceIdeal.main_arg6))) := by
  rw [Cert.ReferenceIdeal.Read.val_main_v102_eq]
  funext i
  obtain ⟨b, q, rfl⟩ : ∃ (b : Fin 32768) (q : Fin 256), i = ix2 b q := ⟨i 0, i 1, eq_ix2 i⟩
  exact Cert.ReferenceIdeal.RefValue.cy_eq _ _ _ _ _ _ _ _ _ b q

/-- From argument arrays that agree, both programs end with the cell's two results. -/
theorem algebraic : Cert.algebraic_KernelIdeal_ReferenceIdeal := by
  intro m ρ m' ρ' _ hagree
  refine ⟨fun c => Cert.KernelIdeal.Whole.hyOut m c, fun c => Cert.KernelIdeal.Whole.cyOut m c,
    Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [reference_hy, (hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2]
    rfl
  · rw [reference_cy, (hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2]
    rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
